-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x1 .f32) (main_arg5 : FVec F S1 .f32) (main_arg6 : FVec F S256x64 .f32) (main_arg7 : FVec F S64 .f32) (main_arg8 : FVec F S64x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x10000 .f32) (main_arg1 : FVec F S10000x256 .f32) (main_arg2 : FVec F S256x128 .f32) (main_arg3 : FVec F S128 .f32) (main_arg4 : FVec F S128x1 .f32) (main_arg5 : FVec F S1 .f32) (main_arg6 : FVec F S256x64 .f32) (main_arg7 : FVec F S64 .f32) (main_arg8 : FVec F S64x1 .f32) (main_arg9 : FVec F S1 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x256 .f32 := Host.absf main_arg1
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S256x192 : Shape := ⟨2, ![256, 192]⟩
abbrev S192 : Shape := ⟨1, ![192]⟩
abbrev S1x192 : Shape := ⟨2, ![1, 192]⟩
abbrev S_ : Shape := ⟨0, ![]⟩
abbrev S128x2 : Shape := ⟨2, ![128, 2]⟩
abbrev S64x2 : Shape := ⟨2, ![64, 2]⟩
abbrev S192x2 : Shape := ⟨2, ![192, 2]⟩
abbrev S2 : Shape := ⟨1, ![2]⟩
abbrev S1x2 : Shape := ⟨2, ![1, 2]⟩
abbrev S10000x192 : Shape := ⟨2, ![10000, 192]⟩
abbrev S2000x256 : Shape := ⟨2, ![2000, 256]⟩
abbrev S2000x192 : Shape := ⟨2, ![2000, 192]⟩
abbrev S10000x2 : Shape := ⟨2, ![10000, 2]⟩
abbrev S400x10000 : Shape := ⟨2, ![400, 10000]⟩
abbrev S400x2 : Shape := ⟨2, ![400, 2]⟩
abbrev S400x192 : Shape := ⟨2, ![400, 192]⟩
abbrev S10000x1 : Shape := ⟨2, ![10000, 1]⟩

abbrev nBuf : Space → Nat
  | .hbm => 27
  | .vmem => 18
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S256x192, .f32⟩
  | .hbm, ⟨11, _⟩ => ⟨S192, .f32⟩
  | .hbm, ⟨12, _⟩ => ⟨S1x192, .f32⟩
  | .hbm, ⟨13, _⟩ => ⟨S_, .f32⟩
  | .hbm, ⟨14, _⟩ => ⟨S128x1, .f32⟩
  | .hbm, ⟨15, _⟩ => ⟨S128x2, .f32⟩
  | .hbm, ⟨16, _⟩ => ⟨S_, .f32⟩
  | .hbm, ⟨17, _⟩ => ⟨S64x1, .f32⟩
  | .hbm, ⟨18, _⟩ => ⟨S64x2, .f32⟩
  | .hbm, ⟨19, _⟩ => ⟨S192x2, .f32⟩
  | .hbm, ⟨20, _⟩ => ⟨S2, .f32⟩
  | .hbm, ⟨21, _⟩ => ⟨S1x2, .f32⟩
  | .hbm, ⟨22, _⟩ => ⟨S10000x192, .bf16⟩
  | .hbm, ⟨23, _⟩ => ⟨S10000x2, .f32⟩
  | .hbm, ⟨24, _⟩ => ⟨S10000x2, .f32⟩
  | .hbm, ⟨25, _⟩ => ⟨S10000x1, .f32⟩
  | .hbm, ⟨26, _⟩ => ⟨S10000x1, .f32⟩
  | .local _ .vmem, ⟨0, _⟩ => ⟨S2000x256, .f32⟩
  | .local _ .vmem, ⟨1, _⟩ => ⟨S2000x256, .f32⟩
  | .local _ .vmem, ⟨2, _⟩ => ⟨S256x192, .f32⟩
  | .local _ .vmem, ⟨3, _⟩ => ⟨S2000x192, .bf16⟩
  | .local _ .vmem, ⟨4, _⟩ => ⟨S2000x192, .bf16⟩
  | .local _ .vmem, ⟨5, _⟩ => ⟨S400x10000, .f32⟩
  | .local _ .vmem, ⟨6, _⟩ => ⟨S400x10000, .f32⟩
  | .local _ .vmem, ⟨7, _⟩ => ⟨S10000x192, .bf16⟩
  | .local _ .vmem, ⟨8, _⟩ => ⟨S1x192, .f32⟩
  | .local _ .vmem, ⟨9, _⟩ => ⟨S192x2, .f32⟩
  | .local _ .vmem, ⟨10, _⟩ => ⟨S400x2, .f32⟩
  | .local _ .vmem, ⟨11, _⟩ => ⟨S400x2, .f32⟩
  | .local _ .vmem, ⟨12, _⟩ => ⟨S400x10000, .f32⟩
  | .local _ .vmem, ⟨13, _⟩ => ⟨S400x10000, .f32⟩
  | .local _ .vmem, ⟨14, _⟩ => ⟨S10000x2, .f32⟩
  | .local _ .vmem, ⟨15, _⟩ => ⟨S1x2, .f32⟩
  | .local _ .vmem, ⟨16, _⟩ => ⟨S400x2, .f32⟩
  | .local _ .vmem, ⟨17, _⟩ => ⟨S400x2, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x192 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S192x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S256x128_S256x64_S256x192_d1 : Shape.Concatenates [S256x128, S256x64] S256x192 1
  concatenates_S128_S64_S192_d0 : Shape.Concatenates [S128, S64] S192 0
  bcast_S192_S1x192_1 : S192.BroadcastsInDim S1x192 (![1] : Fin 1 → Fin S1x192.rank)
  bcast_S_S128x1 : S_.BroadcastsInDim S128x1 (![] : Fin 0 → Fin S128x1.rank)
  concatenates_S128x1_S128x1_S128x2_d1 : Shape.Concatenates [S128x1, S128x1] S128x2 1
  bcast_S_S64x1 : S_.BroadcastsInDim S64x1 (![] : Fin 0 → Fin S64x1.rank)
  concatenates_S64x1_S64x1_S64x2_d1 : Shape.Concatenates [S64x1, S64x1] S64x2 1
  concatenates_S128x2_S64x2_S192x2_d0 : Shape.Concatenates [S128x2, S64x2] S192x2 0
  concatenates_S1_S1_S2_d0 : Shape.Concatenates [S1, S1] S2 0
  bcast_S2_S1x2_1 : S2.BroadcastsInDim S1x2 (![1] : Fin 1 → Fin S1x2.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x192_S256x192_0_0 : ∀ a, (![0, 0] : Fin 2 → Nat) a + S256x192.size a ≤ S256x192.size a
  h_S256x192 : 0 < S256x192.numel
  shapeCasts_S256x192_S256x192 : S256x192.ShapeCasts S256x192
  inb_S2000x192_S2000x192_0_0 : ∀ a, (![0, 0] : Fin 2 → Nat) a + S2000x192.size a ≤ S2000x192.size a
  h_S2000x192 : 0 < S2000x192.numel
  packedbf16_S2000x192_S2000x192_0_0 : (Rect.unit (s := S2000x192) ![0, 0] S2000x192.size inb_S2000x192_S2000x192_0_0).PackedRows (EltTy.packing .bf16)
  inb_S400x10000_S400x10000_0_0 : ∀ a, (![0, 0] : Fin 2 → Nat) a + S400x10000.size a ≤ S400x10000.size a
  h_S400x10000 : 0 < S400x10000.numel
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S400x192 : S1x192.Broadcasts S400x192
  inb_S192x2_S192x2_0_0 : ∀ a, (![0, 0] : Fin 2 → Nat) a + S192x2.size a ≤ S192x2.size a
  h_S192x2 : 0 < S192x2.numel
  shapeCasts_S192x2_S192x2 : S192x2.ShapeCasts S192x2
  inb_S400x2_S400x2_0_0 : ∀ a, (![0, 0] : Fin 2 → Nat) a + S400x2.size a ≤ S400x2.size a
  h_S400x2 : 0 < S400x2.numel
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S400x2 : S1x2.Broadcasts S400x2
  slices_S10000x2_S10000x1_0_1 : S10000x2.Slices ![0, 1] S10000x1
  slices_S10000x2_S10000x1_0_0 : S10000x2.Slices ![0, 0] S10000x1
  dot_S2000x256_S256x192_S2000x192_1_0_0_1_n_n_wf : DotDims.WF S2000x256 S256x192 S2000x192 [1] [0] [0] [1] [] []
  dot_S400x10000_S10000x192_S400x192_1_0_0_1_n_n_wf : DotDims.WF S400x10000 S10000x192 S400x192 [1] [0] [0] [1] [] []
  dot_S400x192_S192x2_S400x2_1_0_0_1_n_n_wf : DotDims.WF S400x192 S192x2 S400x2 [1] [0] [0] [1] [] []
  dot_S400x10000_S10000x2_S400x2_1_0_0_1_n_n_wf : DotDims.WF S400x10000 S10000x2 S400x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x192.size a ≤ S256x192.size a
  hwx0_1 : ∀ i : grid0.Coords, EltTy.bits .f32 = 32 ∨ (Rect.block (s := S256x192) S256x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x192.size a ≤ S10000x192.size a
  hwx0_2 : ∀ i : grid0.Coords, EltTy.bits .bf16 = 32 ∨ (Rect.block (s := S10000x192) S2000x192.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x192.size a ≤ S10000x192.size a
  hwx1_1 : ∀ i : grid1.Coords, EltTy.bits .bf16 = 32 ∨ (Rect.block (s := S10000x192) S10000x192.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x192.size a ≤ S1x192.size a
  hwx1_2 : ∀ i : grid1.Coords, EltTy.bits .f32 = 32 ∨ (Rect.block (s := S1x192) S1x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x2.size a ≤ S192x2.size a
  hwx1_3 : ∀ i : grid1.Coords, EltTy.bits .f32 = 32 ∨ (Rect.block (s := S192x2) S192x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x2.size a ≤ S10000x2.size a
  hwx1_4 : ∀ i : grid1.Coords, EltTy.bits .f32 = 32 ∨ (Rect.block (s := S10000x2) S400x2.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x2.size a ≤ S10000x2.size a
  hwx2_1 : ∀ i : grid2.Coords, EltTy.bits .f32 = 32 ∨ (Rect.block (s := S10000x2) S10000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x2.size a ≤ S10000x2.size a
  hwx2_3 : ∀ i : grid2.Coords, EltTy.bits .f32 = 32 ∨ (Rect.block (s := S10000x2) S400x2.size (cc2_transform_3 i) (hinb2_3 i)).WholeWords (EltTy.packing .f32)

variable [Facts₀]

def dot_S2000x256_S256x192_S2000x192_1_0_0_1_n_n : DotDims S2000x256 S256x192 S2000x192 where
  lhsContracting := [1]
  rhsContracting := [0]
  lhsNonContracting := [0]
  rhsNonContracting := [1]
  lhsBatch := []
  rhsBatch := []
  wf := dot_S2000x256_S256x192_S2000x192_1_0_0_1_n_n_wf
def dot_S400x10000_S10000x192_S400x192_1_0_0_1_n_n : DotDims S400x10000 S10000x192 S400x192 where
  lhsContracting := [1]
  rhsContracting := [0]
  lhsNonContracting := [0]
  rhsNonContracting := [1]
  lhsBatch := []
  rhsBatch := []
  wf := dot_S400x10000_S10000x192_S400x192_1_0_0_1_n_n_wf
def dot_S400x192_S192x2_S400x2_1_0_0_1_n_n : DotDims S400x192 S192x2 S400x2 where
  lhsContracting := [1]
  rhsContracting := [0]
  lhsNonContracting := [0]
  rhsNonContracting := [1]
  lhsBatch := []
  rhsBatch := []
  wf := dot_S400x192_S192x2_S400x2_1_0_0_1_n_n_wf
def dot_S400x10000_S10000x2_S400x2_1_0_0_1_n_n : DotDims S400x10000 S10000x2 S400x2 where
  lhsContracting := [1]
  rhsContracting := [0]
  lhsNonContracting := [0]
  rhsNonContracting := [1]
  lhsBatch := []
  rhsBatch := []
  wf := dot_S400x10000_S10000x2_S400x2_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x192.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S192x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S400x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S10000x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S400x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x256 : Shape := ⟨2, ![10000, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x64 : Shape := ⟨2, ![256, 64]⟩
abbrev S64 : Shape := ⟨1, ![64]⟩
abbrev S64x1 : Shape := ⟨2, ![64, 1]⟩
abbrev S10000x128 : Shape := ⟨2, ![10000, 128]⟩
abbrev S1x128 : Shape := ⟨2, ![1, 128]⟩
abbrev S_ : Shape := ⟨0, ![]⟩
abbrev S10000x1 : Shape := ⟨2, ![10000, 1]⟩
abbrev S1x1 : Shape := ⟨2, ![1, 1]⟩
abbrev S10000x64 : Shape := ⟨2, ![10000, 64]⟩
abbrev S1x64 : Shape := ⟨2, ![1, 64]⟩

abbrev nBuf : Space → Nat
  | .hbm => 36
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x256, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x1, .f32⟩
  | .hbm, ⟨19, _⟩ => ⟨S10000x1, .f32⟩
  | .hbm, ⟨20, _⟩ => ⟨S1x1, .f32⟩
  | .hbm, ⟨21, _⟩ => ⟨S10000x1, .f32⟩
  | .hbm, ⟨22, _⟩ => ⟨S10000x1, .f32⟩
  | .hbm, ⟨23, _⟩ => ⟨S10000x64, .f32⟩
  | .hbm, ⟨24, _⟩ => ⟨S10000x64, .f32⟩
  | .hbm, ⟨25, _⟩ => ⟨S1x64, .f32⟩
  | .hbm, ⟨26, _⟩ => ⟨S10000x64, .f32⟩
  | .hbm, ⟨27, _⟩ => ⟨S10000x64, .f32⟩
  | .hbm, ⟨28, _⟩ => ⟨S_, .f32⟩
  | .hbm, ⟨29, _⟩ => ⟨S10000x64, .f32⟩
  | .hbm, ⟨30, _⟩ => ⟨S10000x64, .f32⟩
  | .hbm, ⟨31, _⟩ => ⟨S10000x1, .f32⟩
  | .hbm, ⟨32, _⟩ => ⟨S10000x1, .f32⟩
  | .hbm, ⟨33, _⟩ => ⟨S1x1, .f32⟩
  | .hbm, ⟨34, _⟩ => ⟨S10000x1, .f32⟩
  | .hbm, ⟨35, _⟩ => ⟨S10000x1, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call1_cst : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x10000_S10000x1_S10000x1_1_0_0_1_n_n_wf : DotDims.WF S10000x10000 S10000x1 S10000x1 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x1_S10000x1_1_0_0_1_n_n_wf : DotDims.WF S10000x64 S64x1 S10000x1 [1] [0] [0] [1] [] []

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.KRun.lean ====
/-
  The idealized kernel program's run, with its two result arrays named.

  The program is five segments: host operations that assemble the fused weights and biases, three
  kernel regions (the feature projection, the first adjacency pass, the second adjacency pass), and two
  host slices that split the last region's two columns into the two results. Each boundary between
  segments has a known memory: the launch memory pushed through the host operations, then each
  region's output array replaced by what its write-backs leave. Here the whole run is stated with
  every result read at the last boundary's memory; the argument arrays end as launched.
-/
import proofs.«108206_g20933670601111_cont_8to1_1445_10_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two results hold what the memory after
    the last host slice holds at their buffers, and the arguments are unchanged. -/
theorem run_boundary : θ_run defs (onTc (τ := τ) (main (F := F))) ⟨m, fun _ => 0, ρ⟩ (fun r => ∀ c : Dev nD,
      r.2.mem ((c.tc : Thread nD τ).loc main_v13) = W5 m ρ c (Proc.devRef .tc main_v13)
      ∧ r.2.mem ((c.tc : Thread nD τ).loc main_v14) = W5 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v13 (by decide)),
       h c _ (mem_uc main_v14 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Hand

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.Spec.lean ====
/-
  Two-layer graph convolution with one output column, and its fused form.

  Over the extended reals, with arrays as functions of their indices:
    (X · Y)(p, q)        = Σ_k X(p, k) · Y(k, q)
    layer A T b (p, k)   = max ((A · T)(p, k) + b k) 0
    affine A U b (p, q)  = (A · U)(p, q) + b q
    gcn A x W b W2 b2    = affine A (layer A (x · W) b · W2) b2        (one column)

  Two such networks that share A and x can be evaluated at once: put the two first-layer weight
  matrices side by side (h1 + h2 hidden units), the two biases end to end, and give the second layer
  one column per network, zero on the other network's hidden units. Column 0 of the fused result is
  the first network and column 1 the second: a hidden unit of the other network contributes
  (its activation) · 0 = 0 to the column's sum, and on its own hidden units the fused network computes
  exactly the unfused terms. Only x · 0 = 0 and 0 + y = y are used, which hold for every extended real,
  so no finiteness is needed.
-/
import Idealize.ShloMosaic.Lib.ValueIdx
import Idealize.ShloMosaic.PureOps.Ideal.Laws

noncomputable section

namespace Cert.GraphConv

open Idealize.ShloMosaic Idealize.ShloMosaic.ValueIdx
open scoped BigOperators

/-- A rank-two array of extended reals. -/
abbrev Mat (a b : ℕ) : Type := (⟨2, ![a, b]⟩ : Shape).Idx → EReal

variable {a n d h h1 h2 c K b' : ℕ}

/-- The array whose entry (p, q) is `f p q`. -/
def mk (f : Fin a → Fin b' → EReal) : Mat a b' :=
  fun i => f ⟨(i 0).val, idx2_lt0 i⟩ ⟨(i 1).val, idx2_lt1 i⟩

theorem mk_ix2 (f : Fin a → Fin b' → EReal) (p : Fin a) (q : Fin b') : mk f (ix2 p q) = f p q := rfl

/-- The matrix product, entry by entry. -/
def prod (X : Mat a K) (Y : Mat K b') : Mat a b' :=
  mk fun p q => ∑ k : Fin K, X (ix2 p k) * Y (ix2 k q)

theorem prod_ix2 (X : Mat a K) (Y : Mat K b') (p : Fin a) (q : Fin b') :
    prod X Y (ix2 p q) = ∑ k : Fin K, X (ix2 p k) * Y (ix2 k q) := rfl

/-- One graph-convolution layer with a rectifier: max (A · T + b, 0), the bias along the columns. -/
def layer (A : Mat a n) (T : Mat n h) (b : Fin h → EReal) : Mat a h :=
  mk fun p k => max (prod A T (ix2 p k) + b k) 0

theorem layer_ix2 (A : Mat a n) (T : Mat n h) (b : Fin h → EReal) (p : Fin a) (k : Fin h) :
    layer A T b (ix2 p k) = max (prod A T (ix2 p k) + b k) 0 := rfl

/-- The output layer: A · U + b, the bias along the columns. -/
def affine (A : Mat a n) (U : Mat n c) (b : Fin c → EReal) : Mat a c :=
  mk fun p q => prod A U (ix2 p q) + b q

theorem affine_ix2 (A : Mat a n) (U : Mat n c) (b : Fin c → EReal) (p : Fin a) (q : Fin c) :
    affine A U b (ix2 p q) = prod A U (ix2 p q) + b q := rfl

/-- The two-layer network with one output column. -/
def gcn (A : Mat n n) (x : Mat n d) (W : Mat d h) (b : Fin h → EReal) (W2 : Mat h 1) (b2 : Fin 1 → EReal) : Mat n 1 :=
  affine A (prod (layer A (prod x W) b) W2) b2

/-- The fused network: h1 + h2 hidden units, two output columns. -/
def fused (A : Mat n n) (x : Mat n d) (Wc : Mat d (h1 + h2)) (bc : Fin (h1 + h2) → EReal)
    (W2 : Mat (h1 + h2) 2) (b2 : Fin 2 → EReal) : Mat n 2 :=
  affine A (prod (layer A (prod x Wc) bc) W2) b2

/-- A hidden unit of the fused first layer that reads the weight column `W(·, k)` and the bias `b k` is that
    network's hidden unit. -/
theorem layer_col (A : Mat a n) (x : Mat n d) (Wc : Mat d h) (bc : Fin h → EReal) (W : Mat d h1) (b : Fin h1 → EReal)
    (k' : Fin h) (k : Fin h1) (hW : ∀ p, Wc (ix2 p k') = W (ix2 p k)) (hb : bc k' = b k) (j : Fin a) :
    layer A (prod x Wc) bc (ix2 j k') = layer A (prod x W) b (ix2 j k) := by
  rw [layer_ix2, layer_ix2, hb, prod_ix2, prod_ix2]
  refine congrArg (fun s => max (s + b k) 0) ?_
  refine Finset.sum_congr rfl fun l _ => congrArg (A (ix2 j l) * ·) ?_
  rw [prod_ix2, prod_ix2]
  exact Finset.sum_congr rfl fun p _ => by rw [hW p]

/-- Column 0 of the fused network is the network on the first h1 hidden units. -/
theorem fused_col0 (A : Mat n n) (x : Mat n d) (Wc : Mat d (h1 + h2)) (bc : Fin (h1 + h2) → EReal)
    (W2c : Mat (h1 + h2) 2) (b2c : Fin 2 → EReal)
    (W : Mat d h1) (b : Fin h1 → EReal) (W2 : Mat h1 1) (b2 : Fin 1 → EReal)
    (hW : ∀ p k, Wc (ix2 p (Fin.castAdd h2 k)) = W (ix2 p k))
    (hb : ∀ k, bc (Fin.castAdd h2 k) = b k)
    (hW2 : ∀ k, W2c (ix2 (Fin.castAdd h2 k) 0) = W2 (ix2 k 0))
    (hz : ∀ k : Fin h2, W2c (ix2 (Fin.natAdd h1 k) 0) = 0)
    (hb2 : b2c 0 = b2 0) (r : Fin n) :
    fused A x Wc bc W2c b2c (ix2 r 0) = gcn A x W b W2 b2 (ix2 r 0) := by
  unfold fused gcn
  rw [affine_ix2, affine_ix2, hb2, prod_ix2, prod_ix2]
  refine congrArg (· + b2 0) ?_
  refine Finset.sum_congr rfl fun j _ => congrArg (A (ix2 r j) * ·) ?_
  rw [prod_ix2, prod_ix2, Fin.sum_univ_add]
  have hzero : ∑ k : Fin h2, layer A (prod x Wc) bc (ix2 j (Fin.natAdd h1 k)) * W2c (ix2 (Fin.natAdd h1 k) 0) = 0 :=
    Finset.sum_eq_zero fun k _ => by rw [hz k, mul_zero]
  rw [hzero, add_zero]
  refine Finset.sum_congr rfl fun k _ => ?_
  rw [hW2 k, layer_col A x Wc bc W b (Fin.castAdd h2 k) k (fun p => hW p k) (hb k) j]

/-- Column 1 of the fused network is the network on the last h2 hidden units. -/
theorem fused_col1 (A : Mat n n) (x : Mat n d) (Wc : Mat d (h1 + h2)) (bc : Fin (h1 + h2) → EReal)
    (W2c : Mat (h1 + h2) 2) (b2c : Fin 2 → EReal)
    (W : Mat d h2) (b : Fin h2 → EReal) (W2 : Mat h2 1) (b2 : Fin 1 → EReal)
    (hW : ∀ p k, Wc (ix2 p (Fin.natAdd h1 k)) = W (ix2 p k))
    (hb : ∀ k, bc (Fin.natAdd h1 k) = b k)
    (hz : ∀ k : Fin h1, W2c (ix2 (Fin.castAdd h2 k) 1) = 0)
    (hW2 : ∀ k, W2c (ix2 (Fin.natAdd h1 k) 1) = W2 (ix2 k 0))
    (hb2 : b2c 1 = b2 0) (r : Fin n) :
    fused A x Wc bc W2c b2c (ix2 r 1) = gcn A x W b W2 b2 (ix2 r 0) := by
  unfold fused gcn
  rw [affine_ix2, affine_ix2, hb2, prod_ix2, prod_ix2]
  refine congrArg (· + b2 0) ?_
  refine Finset.sum_congr rfl fun j _ => congrArg (A (ix2 r j) * ·) ?_
  rw [prod_ix2, prod_ix2, Fin.sum_univ_add]
  have hzero : ∑ k : Fin h1, layer A (prod x Wc) bc (ix2 j (Fin.castAdd h2 k)) * W2c (ix2 (Fin.castAdd h2 k) 1) = 0 :=
    Finset.sum_eq_zero fun k _ => by rw [hz k, mul_zero]
  rw [hzero, zero_add]
  refine Finset.sum_congr rfl fun k _ => ?_
  rw [hW2 k, layer_col A x Wc bc W b (Fin.natAdd h1 k) k (fun p => hW p k) (hb k) j]

/-- An entry of a product depends only on the left factor's row and the right factor's column. -/
theorem prod_congr {a' b'' : ℕ} (X : Mat a K) (X' : Mat a' K) (Y : Mat K b') (Y' : Mat K b'')
    (p : Fin a) (p' : Fin a') (q : Fin b') (q' : Fin b'')
    (hX : ∀ k, X (ix2 p k) = X' (ix2 p' k)) (hY : ∀ k, Y (ix2 k q) = Y' (ix2 k q')) :
    prod X Y (ix2 p q) = prod X' Y' (ix2 p' q') := by
  rw [prod_ix2, prod_ix2]
  exact Finset.sum_congr rfl fun k _ => by rw [hX k, hY k]

/-- An entry of a layer depends only on the adjacency row, the projection's column and the bias entry. -/
theorem layer_congr {a' : ℕ} (A : Mat a n) (A' : Mat a' n) (T T' : Mat n h) (b b2 : Fin h → EReal)
    (p : Fin a) (p' : Fin a') (k : Fin h)
    (hA : ∀ l, A (ix2 p l) = A' (ix2 p' l)) (hT : ∀ l, T (ix2 l k) = T' (ix2 l k)) (hb : b k = b2 k) :
    layer A T b (ix2 p k) = layer A' T' b2 (ix2 p' k) := by
  rw [layer_ix2, layer_ix2, hb, prod_congr A A' T T' p p' k k hA hT]

/-- An entry of the output layer depends only on the adjacency row, the operand's column and the bias entry. -/
theorem affine_congr {a' : ℕ} (A : Mat a n) (A' : Mat a' n) (U U' : Mat n c) (b b2 : Fin c → EReal)
    (p : Fin a) (p' : Fin a') (q : Fin c)
    (hA : ∀ l, A (ix2 p l) = A' (ix2 p' l)) (hU : ∀ l, U (ix2 l q) = U' (ix2 l q)) (hb : b q = b2 q) :
    affine A U b (ix2 p q) = affine A' U' b2 (ix2 p' q) := by
  rw [affine_ix2, affine_ix2, hb, prod_congr A A' U U' p p' q q hA hU]

/-- The two ways a zero offset pair is spelt. -/
theorem zero_offsets : (![0, 0] : Fin 2 → Nat) = fun _ => 0 := funext fun ax => by fin_cases ax <;> rfl

end Cert.GraphConv

end
-- ==== Proof.Pay.lean ====
/-
  What each kernel body stores, as a function of the blocks it loads, read at the ideal instance.

  At the ideal instance a change of float format is the identity and a matrix product into a zero
  accumulator is the textbook sum, so:
    the projection body stores      x_block · W                              (a [2000, 192] block),
    the first adjacency pass stores layer(A_block, T, bias) · W2             (a [400, 2] block),
    the second adjacency pass stores A_block · U + bias                      (a [400, 2] block),
  where the bias arrives as a one-row array broadcast down the rows.
-/
import proofs.«108206_g20933670601111_cont_8to1_1445_10_alg».proof.Proof.Gen.KernelIdeal.Skeleton
import proofs.«108206_g20933670601111_cont_8to1_1445_10_alg».proof.Proof.LibMatmulRead
import proofs.«108206_g20933670601111_cont_8to1_1445_10_alg».proof.Proof.Spec
import Idealize.ShloMosaic.Lib.ValueLayout
import Idealize.ShloMosaic.Lib.Pipeline.Value

noncomputable section

namespace Cert.KernelIdeal.Hand

open Idealize.ShloMosaic Idealize.ShloMosaic.ValueIdx Idealize.ShloMosaic.MatmulRead
open Cert.KernelIdeal Cert.KernelIdeal.Gen Cert.GraphConv
open scoped BigOperators

theorem rbc_proj : RowsByCols dot_S2000x256_S256x192_S2000x192_1_0_0_1_n_n := ⟨rfl, rfl, rfl, rfl, rfl, rfl⟩
theorem rbc_agg : RowsByCols dot_S400x10000_S10000x192_S400x192_1_0_0_1_n_n := ⟨rfl, rfl, rfl, rfl, rfl, rfl⟩
theorem rbc_out : RowsByCols dot_S400x192_S192x2_S400x2_1_0_0_1_n_n := ⟨rfl, rfl, rfl, rfl, rfl, rfl⟩
theorem rbc_agg2 : RowsByCols dot_S400x10000_S10000x2_S400x2_1_0_0_1_n_n := ⟨rfl, rfl, rfl, rfl, rfl, rfl⟩

/-- The projection body stores the product of its two blocks. -/
theorem pay_proj (x0 : Vec Ideal S2000x256 .f32) (x1 : Vec Ideal S256x192 .f32) :
    k0_pay1 (F := Ideal) x0 x1 = prod x0 x1 := by
  funext i
  obtain ⟨p, q, rfl⟩ : ∃ (p : Fin 2000) (q : Fin 192), i = ix2 p q := ⟨i 0, i 1, eq_ix2 i⟩
  rw [prod_ix2]
  unfold k0_pay1
  rw [truncf_apply]
  refine (matmul_zero_ix2 rbc_proj rfl rfl none _ _ p q).trans ?_
  refine Finset.sum_congr rfl fun k _ => ?_
  rw [truncf_apply, truncf_apply, shapeCast_self]

/-- The first adjacency pass stores the rectified layer of its adjacency rows, times the second-layer weights. -/
theorem pay_pass1 (x0 : Vec Ideal S400x10000 .f32) (x1 : Vec Ideal S10000x192 .bf16) (x2 : Vec Ideal S1x192 .f32)
    (x3 : Vec Ideal S192x2 .f32) :
    k1_pay1 (F := Ideal) x0 x1 x2 x3 = prod (layer x0 x1 (fun k => x2 (ix2 (0 : Fin 1) k))) x3 := by
  funext i
  obtain ⟨p, q, rfl⟩ : ∃ (p : Fin 400) (q : Fin 2), i = ix2 p q := ⟨i 0, i 1, eq_ix2 i⟩
  rw [prod_ix2]
  unfold k1_pay1
  simp only [shapeCast_self]
  refine (matmul_zero_ix2 rbc_out rfl rfl none _ _ p q).trans ?_
  refine Finset.sum_congr rfl fun k _ => ?_
  rw [truncf_apply, truncf_apply, layer_ix2, prod_ix2]
  refine congrArg (· * x3 (ix2 k q)) ?_
  rw [maximumf_apply, addf_apply, broadcast_apply, broadcastTo_1b_ab_apply]
  refine (congrArg (fun s => max (s + x2 (ix2 (0 : Fin 1) k)) (Ideal.ofBits .f32 0x00000000#32))
    (matmul_zero_ix2 rbc_agg rfl rfl none _ _ p k)).trans ?_
  rw [Ideal.ofBits_zero_f32]
  refine congrArg (fun s => max (s + x2 (ix2 (0 : Fin 1) k)) 0) ?_
  refine Finset.sum_congr rfl fun l _ => ?_
  rw [truncf_apply]

/-- The second adjacency pass stores its adjacency rows times the first pass's result, plus the bias row. -/
theorem pay_pass2 (x0 : Vec Ideal S400x10000 .f32) (x1 : Vec Ideal S10000x2 .f32) (x2 : Vec Ideal S1x2 .f32) :
    k2_pay1 (F := Ideal) x0 x1 x2 = affine x0 x1 (fun q => x2 (ix2 (0 : Fin 1) q)) := by
  funext i
  obtain ⟨p, q, rfl⟩ : ∃ (p : Fin 400) (q : Fin 2), i = ix2 p q := ⟨i 0, i 1, eq_ix2 i⟩
  rw [affine_ix2, prod_ix2]
  unfold k2_pay1
  simp only [shapeCast_self]
  rw [addf_apply, broadcastTo_1b_ab_apply]
  refine (congrArg (· + x2 (ix2 (0 : Fin 1) q)) (matmul_zero_ix2 rbc_agg2 rfl rfl none _ _ p q)).trans ?_
  refine congrArg (· + x2 (ix2 (0 : Fin 1) q)) ?_
  refine Finset.sum_congr rfl fun l _ => ?_
  rw [truncf_apply, truncf_apply]

end Cert.KernelIdeal.Hand

end
-- ==== Proof.Region0.lean ====
/-
  The projection region: the array it leaves.

  The grid has five points; point t stages rows 2000 t … 2000 t + 1999 of x and the whole fused weight
  array, stores their product into a [2000, 192] block, and writes that block back as rows
  2000 t … 2000 t + 1999 of the result. Row r of the result is therefore written by point r / 2000, and
  the result is the product x · W of the whole arrays, whatever memory the region is entered from.
-/
import proofs.«108206_g20933670601111_cont_8to1_1445_10_alg».proof.Proof.Gen.KernelIdeal.Frame
import proofs.«108206_g20933670601111_cont_8to1_1445_10_alg».proof.Proof.Pay
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (V : (c : Dev nD) → (b : Ref sig .tc) → Buf (Elt Ideal) ((c : Thread nD τ).loc b))

/-- The printed index maps over the grid: the x window and the result window move down the rows with the point,
    the weight window stays. -/
theorem idx_proj : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_proj (t : Fin cfg0.N) : t.val < 5 := lt_of_lt_of_eq t.isLt (show cfg0.N = 5 from N_0)

/-- The x window's block at point t is rows 2000 t … of x. -/
theorem blk_proj_x (c : Dev nD) (t : Fin cfg0.N) (p : Fin 2000) (k : Fin 256) (r : Fin 10000)
    (hr : r.val = t.val * 2000 + p.val) :
    (iblk0 V c 0 t : Vec Ideal S2000x256 .f32) (ix2 p k) = (V c main_arg1 : S10000x256.Idx → EReal) (ix2 r k) := by
  obtain ⟨e0, e1, -⟩ := idx_proj t
  show V c main_arg1 (((cfg0.win 0).blk t).view.emb (ix2 p k)) = V c main_arg1 (ix2 r k)
  refine congrArg (V c main_arg1) (funext fun ax => Fin.ext ?_)
  match ax with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The weight window's block at every point is the whole weight array. -/
theorem blk_proj_w (c : Dev nD) (t : Fin cfg0.N) (k : Fin 256) (q : Fin 192) :
    (iblk0 V c 1 t : Vec Ideal S256x192 .f32) (ix2 k q) = (V c main_v0 : S256x192.Idx → EReal) (ix2 k q) := by
  obtain ⟨-, -, e2, e3, -⟩ := idx_proj t
  show V c main_v0 (((cfg0.win 1).blk t).view.emb (ix2 k q)) = V c main_v0 (ix2 k q)
  refine congrArg (V c main_v0) (funext fun ax => Fin.ext ?_)
  match ax with
  | ⟨0, _⟩ => show win0_1.index t (0 : Fin 2) * 256 + 1 * k.val = k.val; rw [e2]; omega
  | ⟨1, _⟩ => show win0_1.index t (1 : Fin 2) * 192 + 1 * q.val = q.val; rw [e3]; omega

/-- What point t writes back is block t of the product of the whole arrays. -/
theorem flushed_proj (c : Dev nD) (t : Fin cfg0.N) :
    (dat0 V c).flushed 2 t = ((cfg0.win 2).blk t).view.read (Elt Ideal)
      (prod (V c main_arg1 : S10000x256.Idx → EReal) (V c main_v0 : S256x192.Idx → EReal)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x192) zero_offsets]
  obtain ⟨-, -, -, -, e4, e5⟩ := idx_proj t
  have ht := lt_proj t
  funext j
  obtain ⟨p, q, rfl⟩ : ∃ (p : Fin 2000) (q : Fin 192), j = ix2 p q := ⟨j 0, j 1, eq_ix2 j⟩
  have hr : t.val * 2000 + p.val < 10000 := by have := p.isLt; omega
  have hemb : ((cfg0.win 2).blk t).view.emb (ix2 p q) = ix2 (⟨t.val * 2000 + p.val, hr⟩ : Fin 10000) q := by
    funext ax; apply Fin.ext
    match ax with
    | ⟨0, _⟩ => show win0_2.index t (0 : Fin 2) * 2000 + 1 * p.val = t.val * 2000 + p.val; rw [e4]; omega
    | ⟨1, _⟩ => show win0_2.index t (1 : Fin 2) * 192 + 1 * q.val = q.val; rw [e5]; omega
  show k0_pay1 (F := Ideal) (iblk0 V c 0 t) (iblk0 V c 1 t) (ix2 p q)
    = prod (V c main_arg1 : S10000x256.Idx → EReal) (V c main_v0 : S256x192.Idx → EReal) (((cfg0.win 2).blk t).view.emb (ix2 p q))
  rw [hemb]
  refine (congrFun (pay_proj (iblk0 V c 0 t) (iblk0 V c 1 t)) (ix2 p q)).trans ?_
  exact prod_congr _ _ _ _ p _ q q (fun k => blk_proj_x V c t p k _ rfl) (fun k => blk_proj_w V c t k q)

/-- An index of the result is in point t's block iff each coordinate is in the block's range. -/
theorem mem_blk_proj (t : Fin cfg0.N) (i : S10000x192.Idx) :
    i ∈ ((cfg0.win 2).blk t).view.set ↔ ∀ ax : Fin 2, win0_2.index t ax * S2000x192.size ax ≤ (i ax).val
      ∧ (i ax).val < win0_2.index t ax * S2000x192.size ax + S2000x192.size ax := by
  show i ∈ ((View.whole main_v10).slice (win0_2.rect t)).set ↔ _
  rw [View.set_slice_whole, Rect.mem_set_unit]
  exact Iff.rfl

/-- Every row of the result is written by the point its row block belongs to. -/
theorem cover_proj (i : S10000x192.Idx) :
    ∃ t : Fin cfg0.N, (cfg0.win 2).flush t = true ∧ i ∈ ((cfg0.win 2).blk t).view.set := by
  have hi0 : (i 0).val < 10000 := (i 0).isLt
  have hi1 : (i 1).val < 192 := (i 1).isLt
  have hN : cfg0.N = 5 := N_0
  let t : Fin cfg0.N := ⟨(i 0).val / 2000, by rw [hN]; omega⟩
  have htv : t.val = (i 0).val / 2000 := rfl
  obtain ⟨-, -, -, -, e4, e5⟩ := idx_proj t
  refine ⟨t, flush0_2 t, ?_⟩
  rw [mem_blk_proj]
  intro ax
  match ax with
  | ⟨0, _⟩ =>
    show win0_2.index t (0 : Fin 2) * 2000 ≤ (i 0).val ∧ (i 0).val < win0_2.index t (0 : Fin 2) * 2000 + 2000
    rw [e4, htv]; omega
  | ⟨1, _⟩ =>
    show win0_2.index t (1 : Fin 2) * 192 ≤ (i 1).val ∧ (i 1).val < win0_2.index t (1 : Fin 2) * 192 + 192
    rw [e5]; omega

/-- The array the projection region leaves: the product of x and the fused weights as the region finds them. -/
theorem final_proj (c : Dev nD) :
    (dat0 V c).arrAt 2 cfg0.N = prod (V c main_arg1 : S10000x256.Idx → EReal) (V c main_v0 : S256x192.Idx → EReal) :=
  (dat0 V c).arrAt_eq_of_cover 2 _ (fun t _ => flushed_proj V c t) cover_proj

end Cert.KernelIdeal.Hand

end
-- ==== Proof.Region1.lean ====
/-
  The first adjacency pass: the array it leaves.

  The grid has 25 points; point t stages rows 400 t … 400 t + 399 of the adjacency and, whole, the
  projected features T, the bias row and the second-layer weights; it stores
  layer(A_rows, T, bias) · W2 into a [400, 2] block and writes it back as rows 400 t … of the result.
  Row r of the result is written by point r / 400, so the result is layer(A, T, bias) · W2 of the
  whole arrays, whatever memory the region is entered from.
-/
import proofs.«108206_g20933670601111_cont_8to1_1445_10_alg».proof.Proof.Gen.KernelIdeal.Frame
import proofs.«108206_g20933670601111_cont_8to1_1445_10_alg».proof.Proof.Pay
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (V : (c : Dev nD) → (b : Ref sig .tc) → Buf (Elt Ideal) ((c : Thread nD τ).loc b))

/-- The printed index maps over the grid: the adjacency window and the result window move down the rows with the
    point, the other three windows stay. -/
theorem idx_pass1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem lt_pass1 (t : Fin cfg1.N) : t.val < 25 := lt_of_lt_of_eq t.isLt (show cfg1.N = 25 from N_1)

/-- The adjacency window's block at point t is rows 400 t … of the adjacency. -/
theorem blk_pass1_adj (c : Dev nD) (t : Fin cfg1.N) (p : Fin 400) (l : Fin 10000) (r : Fin 10000)
    (hr : r.val = t.val * 400 + p.val) :
    (iblk1 V c 0 t : Vec Ideal S400x10000 .f32) (ix2 p l) = (V c main_arg0 : S10000x10000.Idx → EReal) (ix2 r l) := by
  obtain ⟨e0, e1, -⟩ := idx_pass1 t
  show V c main_arg0 (((cfg1.win 0).blk t).view.emb (ix2 p l)) = V c main_arg0 (ix2 r l)
  refine congrArg (V c main_arg0) (funext fun ax => Fin.ext ?_)
  match ax with
  | ⟨0, _⟩ => show win1_0.index t (0 : Fin 2) * 400 + 1 * p.val = r.val; rw [e0, hr]; omega
  | ⟨1, _⟩ => show win1_0.index t (1 : Fin 2) * 10000 + 1 * l.val = l.val; rw [e1]; omega

/-- The projected-features window's block is the whole array. -/
theorem blk_pass1_T (c : Dev nD) (t : Fin cfg1.N) (l : Fin 10000) (k : Fin 192) :
    (iblk1 V c 1 t : Vec Ideal S10000x192 .bf16) (ix2 l k) = (V c main_v10 : S10000x192.Idx → EReal) (ix2 l k) := by
  obtain ⟨-, -, e0, e1, -⟩ := idx_pass1 t
  show V c main_v10 (((cfg1.win 1).blk t).view.emb (ix2 l k)) = V c main_v10 (ix2 l k)
  refine congrArg (V c main_v10) (funext fun ax => Fin.ext ?_)
  match ax with
  | ⟨0, _⟩ => show win1_1.index t (0 : Fin 2) * 10000 + 1 * l.val = l.val; rw [e0]; omega
  | ⟨1, _⟩ => show win1_1.index t (1 : Fin 2) * 192 + 1 * k.val = k.val; rw [e1]; omega

/-- The bias window's block is the whole bias row. -/
theorem blk_pass1_b (c : Dev nD) (t : Fin cfg1.N) (k : Fin 192) :
    (iblk1 V c 2 t : Vec Ideal S1x192 .f32) (ix2 (0 : Fin 1) k) = (V c main_v2 : S1x192.Idx → EReal) (ix2 (0 : Fin 1) k) := by
  obtain ⟨-, -, -, -, e0, e1, -⟩ := idx_pass1 t
  show V c main_v2 (((cfg1.win 2).blk t).view.emb (ix2 (0 : Fin 1) k)) = V c main_v2 (ix2 (0 : Fin 1) k)
  refine congrArg (V c main_v2) (funext fun ax => Fin.ext ?_)
  match ax with
  | ⟨0, _⟩ => show win1_2.index t (0 : Fin 2) * 1 + 1 * 0 = 0; rw [e0]
  | ⟨1, _⟩ => show win1_2.index t (1 : Fin 2) * 192 + 1 * k.val = k.val; rw [e1]; omega

/-- The second-layer weight window's block is the whole array. -/
theorem blk_pass1_w (c : Dev nD) (t : Fin cfg1.N) (k : Fin 192) (q : Fin 2) :
    (iblk1 V c 3 t : Vec Ideal S192x2 .f32) (ix2 k q) = (V c main_v7 : S192x2.Idx → EReal) (ix2 k q) := by
  obtain ⟨-, -, -, -, -, -, e0, e1, -⟩ := idx_pass1 t
  show V c main_v7 (((cfg1.win 3).blk t).view.emb (ix2 k q)) = V c main_v7 (ix2 k q)
  refine congrArg (V c main_v7) (funext fun ax => Fin.ext ?_)
  match ax with
  | ⟨0, _⟩ => show win1_3.index t (0 : Fin 2) * 192 + 1 * k.val = k.val; rw [e0]; omega
  | ⟨1, _⟩ => show win1_3.index t (1 : Fin 2) * 2 + 1 * q.val = q.val; rw [e1]; omega

/-- The whole-array function the pass computes. -/
abbrev pass1Arr (c : Dev nD) : Mat 10000 2 :=
  prod (layer (V c main_arg0 : S10000x10000.Idx → EReal) (V c main_v10 : S10000x192.Idx → EReal)
    (fun k => (V c main_v2 : S1x192.Idx → EReal) (ix2 (0 : Fin 1) k))) (V c main_v7 : S192x2.Idx → EReal)

/-- What point t writes back is block t of that function. -/
theorem flushed_pass1 (c : Dev nD) (t : Fin cfg1.N) :
    (dat1 V c).flushed 4 t = ((cfg1.win 4).blk t).view.read (Elt Ideal) (pass1Arr V c) := by
  show (cfg1.win 4).cut (grid1.coords t) ((dat1 V c).after 4 t) = _
  rw [after1_4]
  unfold out1_4
  rw [View.canon_unit_zero zero_offsets]
  simp only [View.ld_unit_zero (S := S400x10000) zero_offsets, View.ld_unit_zero (S := S10000x192) zero_offsets,
    View.ld_unit_zero (S := S1x192) zero_offsets, View.ld_unit_zero (S := S192x2) zero_offsets]
  obtain ⟨-, -, -, -, -, -, -, -, e8, e9⟩ := idx_pass1 t
  have ht := lt_pass1 t
  funext j
  obtain ⟨p, q, rfl⟩ : ∃ (p : Fin 400) (q : Fin 2), j = ix2 p q := ⟨j 0, j 1, eq_ix2 j⟩
  have hr : t.val * 400 + p.val < 10000 := by have := p.isLt; omega
  have hemb : ((cfg1.win 4).blk t).view.emb (ix2 p q) = ix2 (⟨t.val * 400 + p.val, hr⟩ : Fin 10000) q := by
    funext ax; apply Fin.ext
    match ax with
    | ⟨0, _⟩ => show win1_4.index t (0 : Fin 2) * 400 + 1 * p.val = t.val * 400 + p.val; rw [e8]; omega
    | ⟨1, _⟩ => show win1_4.index t (1 : Fin 2) * 2 + 1 * q.val = q.val; rw [e9]; omega
  show k1_pay1 (F := Ideal) (iblk1 V c 0 t) (iblk1 V c 1 t) (iblk1 V c 2 t) (iblk1 V c 3 t) (ix2 p q)
    = pass1Arr V c (((cfg1.win 4).blk t).view.emb (ix2 p q))
  rw [hemb]
  refine (congrFun (pay_pass1 (iblk1 V c 0 t) (iblk1 V c 1 t) (iblk1 V c 2 t) (iblk1 V c 3 t)) (ix2 p q)).trans ?_
  exact prod_congr _ _ _ _ p _ q q
    (fun k => layer_congr _ _ _ _ _ _ p _ k (fun l => blk_pass1_adj V c t p l _ rfl) (fun l => blk_pass1_T V c t l k)
      (blk_pass1_b V c t k))
    (fun k => blk_pass1_w V c t k q)

/-- An index of the result is in point t's block iff each coordinate is in the block's range. -/
theorem mem_blk_pass1 (t : Fin cfg1.N) (i : S10000x2.Idx) :
    i ∈ ((cfg1.win 4).blk t).view.set ↔ ∀ ax : Fin 2, win1_4.index t ax * S400x2.size ax ≤ (i ax).val
      ∧ (i ax).val < win1_4.index t ax * S400x2.size ax + S400x2.size ax := by
  show i ∈ ((View.whole main_v11).slice (win1_4.rect t)).set ↔ _
  rw [View.set_slice_whole, Rect.mem_set_unit]
  exact Iff.rfl

/-- Every row of the result is written by the point its row block belongs to. -/
theorem cover_pass1 (i : S10000x2.Idx) :
    ∃ t : Fin cfg1.N, (cfg1.win 4).flush t = true ∧ i ∈ ((cfg1.win 4).blk t).view.set := by
  have hi0 : (i 0).val < 10000 := (i 0).isLt
  have hi1 : (i 1).val < 2 := (i 1).isLt
  have hN : cfg1.N = 25 := N_1
  let t : Fin cfg1.N := ⟨(i 0).val / 400, by rw [hN]; omega⟩
  have htv : t.val = (i 0).val / 400 := rfl
  obtain ⟨-, -, -, -, -, -, -, -, e8, e9⟩ := idx_pass1 t
  refine ⟨t, flush1_4 t, ?_⟩
  rw [mem_blk_pass1]
  intro ax
  match ax with
  | ⟨0, _⟩ =>
    show win1_4.index t (0 : Fin 2) * 400 ≤ (i 0).val ∧ (i 0).val < win1_4.index t (0 : Fin 2) * 400 + 400
    rw [e8, htv]; omega
  | ⟨1, _⟩ =>
    show win1_4.index t (1 : Fin 2) * 2 ≤ (i 1).val ∧ (i 1).val < win1_4.index t (1 : Fin 2) * 2 + 2
    rw [e9]; omega

/-- The array the first adjacency pass leaves. -/
theorem final_pass1 (c : Dev nD) : (dat1 V c).arrAt 4 cfg1.N = pass1Arr V c :=
  (dat1 V c).arrAt_eq_of_cover 4 _ (fun t _ => flushed_pass1 V c t) cover_pass1

end Cert.KernelIdeal.Hand

end
-- ==== Proof.Region2.lean ====
/-
  The second adjacency pass: the array it leaves.

  The grid has 25 points; point t stages rows 400 t … 400 t + 399 of the adjacency and, whole, the first
  pass's result U and the bias row; it stores A_rows · U + bias into a [400, 2] block and writes it back as
  rows 400 t … of the result. Row r of the result is written by point r / 400, so the result is
  A · U + bias of the whole arrays, whatever memory the region is entered from.
-/
import proofs.«108206_g20933670601111_cont_8to1_1445_10_alg».proof.Proof.Gen.KernelIdeal.Frame
import proofs.«108206_g20933670601111_cont_8to1_1445_10_alg».proof.Proof.Pay
import Idealize.ShloMosaic.Lib.Pipeline.Value

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.GraphConv

variable (V : (c : Dev nD) → (b : Ref sig .tc) → Buf (Elt Ideal) ((c : Thread nD τ).loc b))

/-- The printed index maps over the grid: the adjacency window and the result window move down the rows with the
    point, the other two windows stay. -/
theorem idx_pass2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_pass2 (t : Fin cfg2.N) : t.val < 25 := lt_of_lt_of_eq t.isLt (show cfg2.N = 25 from N_2)

/-- The adjacency window's block at point t is rows 400 t … of the adjacency. -/
theorem blk_pass2_adj (c : Dev nD) (t : Fin cfg2.N) (p : Fin 400) (l : Fin 10000) (r : Fin 10000)
    (hr : r.val = t.val * 400 + p.val) :
    (iblk2 V c 0 t : Vec Ideal S400x10000 .f32) (ix2 p l) = (V c main_arg0 : S10000x10000.Idx → EReal) (ix2 r l) := by
  obtain ⟨e0, e1, -⟩ := idx_pass2 t
  show V c main_arg0 (((cfg2.win 0).blk t).view.emb (ix2 p l)) = V c main_arg0 (ix2 r l)
  refine congrArg (V c main_arg0) (funext fun ax => Fin.ext ?_)
  match ax with
  | ⟨0, _⟩ => show win2_0.index t (0 : Fin 2) * 400 + 1 * p.val = r.val; rw [e0, hr]; omega
  | ⟨1, _⟩ => show win2_0.index t (1 : Fin 2) * 10000 + 1 * l.val = l.val; rw [e1]; omega

/-- The first pass's result is staged whole. -/
theorem blk_pass2_U (c : Dev nD) (t : Fin cfg2.N) (l : Fin 10000) (q : Fin 2) :
    (iblk2 V c 1 t : Vec Ideal S10000x2 .f32) (ix2 l q) = (V c main_v11 : S10000x2.Idx → EReal) (ix2 l q) := by
  obtain ⟨-, -, e0, e1, -⟩ := idx_pass2 t
  show V c main_v11 (((cfg2.win 1).blk t).view.emb (ix2 l q)) = V c main_v11 (ix2 l q)
  refine congrArg (V c main_v11) (funext fun ax => Fin.ext ?_)
  match ax with
  | ⟨0, _⟩ => show win2_1.index t (0 : Fin 2) * 10000 + 1 * l.val = l.val; rw [e0]; omega
  | ⟨1, _⟩ => show win2_1.index t (1 : Fin 2) * 2 + 1 * q.val = q.val; rw [e1]; omega

/-- The bias window's block is the whole bias row. -/
theorem blk_pass2_b (c : Dev nD) (t : Fin cfg2.N) (q : Fin 2) :
    (iblk2 V c 2 t : Vec Ideal S1x2 .f32) (ix2 (0 : Fin 1) q) = (V c main_v9 : S1x2.Idx → EReal) (ix2 (0 : Fin 1) q) := by
  obtain ⟨-, -, -, -, e0, e1, -⟩ := idx_pass2 t
  show V c main_v9 (((cfg2.win 2).blk t).view.emb (ix2 (0 : Fin 1) q)) = V c main_v9 (ix2 (0 : Fin 1) q)
  refine congrArg (V c main_v9) (funext fun ax => Fin.ext ?_)
  match ax with
  | ⟨0, _⟩ => show win2_2.index t (0 : Fin 2) * 1 + 1 * 0 = 0; rw [e0]
  | ⟨1, _⟩ => show win2_2.index t (1 : Fin 2) * 2 + 1 * q.val = q.val; rw [e1]; omega

/-- The whole-array function the pass computes. -/
abbrev pass2Arr (c : Dev nD) : Mat 10000 2 :=
  affine (V c main_arg0 : S10000x10000.Idx → EReal) (V c main_v11 : S10000x2.Idx → EReal)
    (fun q => (V c main_v9 : S1x2.Idx → EReal) (ix2 (0 : Fin 1) q))

/-- What point t writes back is block t of that function. -/
theorem flushed_pass2 (c : Dev nD) (t : Fin cfg2.N) :
    (dat2 V c).flushed 3 t = ((cfg2.win 3).blk t).view.read (Elt Ideal) (pass2Arr V c) := by
  show (cfg2.win 3).cut (grid2.coords t) ((dat2 V c).after 3 t) = _
  rw [after2_3]
  unfold out2_3
  rw [View.canon_unit_zero zero_offsets]
  simp only [View.ld_unit_zero (S := S400x10000) zero_offsets, View.ld_unit_zero (S := S10000x2) zero_offsets,
    View.ld_unit_zero (S := S1x2) zero_offsets]
  obtain ⟨-, -, -, -, -, -, e6, e7⟩ := idx_pass2 t
  have ht := lt_pass2 t
  funext j
  obtain ⟨p, q, rfl⟩ : ∃ (p : Fin 400) (q : Fin 2), j = ix2 p q := ⟨j 0, j 1, eq_ix2 j⟩
  have hr : t.val * 400 + p.val < 10000 := by have := p.isLt; omega
  have hemb : ((cfg2.win 3).blk t).view.emb (ix2 p q) = ix2 (⟨t.val * 400 + p.val, hr⟩ : Fin 10000) q := by
    funext ax; apply Fin.ext
    match ax with
    | ⟨0, _⟩ => show win2_3.index t (0 : Fin 2) * 400 + 1 * p.val = t.val * 400 + p.val; rw [e6]; omega
    | ⟨1, _⟩ => show win2_3.index t (1 : Fin 2) * 2 + 1 * q.val = q.val; rw [e7]; omega
  show k2_pay1 (F := Ideal) (iblk2 V c 0 t) (iblk2 V c 1 t) (iblk2 V c 2 t) (ix2 p q)
    = pass2Arr V c (((cfg2.win 3).blk t).view.emb (ix2 p q))
  rw [hemb]
  refine (congrFun (pay_pass2 (iblk2 V c 0 t) (iblk2 V c 1 t) (iblk2 V c 2 t)) (ix2 p q)).trans ?_
  exact affine_congr _ _ _ _ _ _ p _ q (fun l => blk_pass2_adj V c t p l _ rfl) (fun l => blk_pass2_U V c t l q)
    (blk_pass2_b V c t q)

/-- An index of the result is in point t's block iff each coordinate is in the block's range. -/
theorem mem_blk_pass2 (t : Fin cfg2.N) (i : S10000x2.Idx) :
    i ∈ ((cfg2.win 3).blk t).view.set ↔ ∀ ax : Fin 2, win2_3.index t ax * S400x2.size ax ≤ (i ax).val
      ∧ (i ax).val < win2_3.index t ax * S400x2.size ax + S400x2.size ax := by
  show i ∈ ((View.whole main_v12).slice (win2_3.rect t)).set ↔ _
  rw [View.set_slice_whole, Rect.mem_set_unit]
  exact Iff.rfl

/-- Every row of the result is written by the point its row block belongs to. -/
theorem cover_pass2 (i : S10000x2.Idx) :
    ∃ t : Fin cfg2.N, (cfg2.win 3).flush t = true ∧ i ∈ ((cfg2.win 3).blk t).view.set := by
  have hi0 : (i 0).val < 10000 := (i 0).isLt
  have hi1 : (i 1).val < 2 := (i 1).isLt
  have hN : cfg2.N = 25 := N_2
  let t : Fin cfg2.N := ⟨(i 0).val / 400, by rw [hN]; omega⟩
  have htv : t.val = (i 0).val / 400 := rfl
  obtain ⟨-, -, -, -, -, -, e6, e7⟩ := idx_pass2 t
  refine ⟨t, flush2_3 t, ?_⟩
  rw [mem_blk_pass2]
  intro ax
  match ax with
  | ⟨0, _⟩ =>
    show win2_3.index t (0 : Fin 2) * 400 ≤ (i 0).val ∧ (i 0).val < win2_3.index t (0 : Fin 2) * 400 + 400
    rw [e6, htv]; omega
  | ⟨1, _⟩ =>
    show win2_3.index t (1 : Fin 2) * 2 ≤ (i 1).val ∧ (i 1).val < win2_3.index t (1 : Fin 2) * 2 + 2
    rw [e7]; omega

/-- The array the second adjacency pass leaves. -/
theorem final_pass2 (c : Dev nD) : (dat2 V c).arrAt 3 cfg2.N = pass2Arr V c :=
  (dat2 V c).arrAt_eq_of_cover 3 _ (fun t _ => flushed_pass2 V c t) cover_pass2

end Cert.KernelIdeal.Hand

end
-- ==== Proof.Glue.lean ====
/-
  The fused arrays the host assembles before the kernel regions, read at an index.

  The two first-layer weight matrices are laid side by side (128 then 64 columns), the two first-layer
  biases end to end and given a unit leading axis, the two second-layer weight columns are placed in a
  [192, 2] array that is zero outside its two diagonal blocks, and the two output biases become a [1, 2]
  row. Each entry of a fused array is an entry of one of the argument arrays, or zero.
-/
import proofs.«108206_g20933670601111_cont_8to1_1445_10_alg».proof.Proof.Gen.KernelIdeal
import proofs.«108206_g20933670601111_cont_8to1_1445_10_alg».proof.Proof.Spec
import Idealize.ShloMosaic.Lib.Pipeline.Value
import Idealize.ShloMosaic.Lib.IdealHost

noncomputable section

namespace Cert.KernelIdeal.Hand

open Idealize.ShloMosaic Idealize.ShloMosaic.ValueIdx
open Cert.KernelIdeal Cert.KernelIdeal.Facts₀ Cert.GraphConv

/-- The first-layer weights side by side. -/
def catW (a : S256x128.Idx → EReal) (b : S256x64.Idx → EReal) : S256x192.Idx → EReal :=
  concatenate S256x192 1 [⟨S256x128, a⟩, ⟨S256x64, b⟩] concatenates_S256x128_S256x64_S256x192_d1

/-- The first-layer biases end to end, as one row. -/
def catB (a : S128.Idx → EReal) (b : S64.Idx → EReal) : S1x192.Idx → EReal :=
  broadcastInDim S1x192 ![1] bcast_S192_S1x192_1 (concatenate S192 0 [⟨S128, a⟩, ⟨S64, b⟩] concatenates_S128_S64_S192_d0)

/-- The second-layer weights, one column per network, zero on the other network's hidden units. -/
def catW2 (a : S128x1.Idx → EReal) (b : S64x1.Idx → EReal) : S192x2.Idx → EReal :=
  concatenate S192x2 0
    [⟨S128x2, concatenate S128x2 1 [⟨S128x1, a⟩, ⟨S128x1, broadcastInDim S128x1 ![] bcast_S_S128x1 (constant (F := Ideal) S_ .f32 0x00000000#32)⟩] concatenates_S128x1_S128x1_S128x2_d1⟩,
     ⟨S64x2, concatenate S64x2 1 [⟨S64x1, broadcastInDim S64x1 ![] bcast_S_S64x1 (constant (F := Ideal) S_ .f32 0x00000000#32)⟩, ⟨S64x1, b⟩] concatenates_S64x1_S64x1_S64x2_d1⟩]
    concatenates_S128x2_S64x2_S192x2_d0

/-- The output biases as one row. -/
def catB2 (a : S1.Idx → EReal) (b : S1.Idx → EReal) : S1x2.Idx → EReal :=
  broadcastInDim S1x2 ![1] bcast_S2_S1x2_1 (concatenate S2 0 [⟨S1, a⟩, ⟨S1, b⟩] concatenates_S1_S1_S2_d0)

theorem catW_left (a : S256x128.Idx → EReal) (b : S256x64.Idx → EReal) (p : Fin 256) (k : Fin 128) :
    catW a b (ix2 p (Fin.castAdd 64 k)) = a (ix2 p k) := by
  unfold catW
  refine concatenate_pair_apply_left (t := S256x192) (s₁ := S256x128) (s₂ := S256x64) (1 : Fin 2) a b
    concatenates_S256x128_S256x64_S256x192_d1 (ix2 p (Fin.castAdd 64 k)) rfl (ix2 p k) fun ax => ?_
  match ax with
  | ⟨0, _⟩ => rfl
  | ⟨1, _⟩ => rfl

theorem catW_right (a : S256x128.Idx → EReal) (b : S256x64.Idx → EReal) (p : Fin 256) (k : Fin 64) :
    catW a b (ix2 p (Fin.natAdd 128 k)) = b (ix2 p k) := by
  unfold catW
  refine concatenate_pair_apply_right (t := S256x192) (s₁ := S256x128) (s₂ := S256x64) (1 : Fin 2) a b
    concatenates_S256x128_S256x64_S256x192_d1 (ix2 p (Fin.natAdd 128 k)) rfl rfl (ix2 p k) (fun ax hax => ?_) ?_
  · match ax with
    | ⟨0, _⟩ => rfl
    | ⟨1, _⟩ => exact absurd rfl hax
  · show k.val + 128 = 128 + k.val
    omega

theorem catB_left (a : S128.Idx → EReal) (b : S64.Idx → EReal) (k : Fin 128) :
    catB a b (ix2 (0 : Fin 1) (Fin.castAdd 64 k)) = a (ix1 k) := by
  unfold catB
  refine (broadcastInDim_apply (s := S192) (t := S1x192) ![1] bcast_S192_S1x192_1 _ (ix2 (0 : Fin 1) (Fin.castAdd 64 k))
    (ix1 (Fin.castAdd 64 k)) (fun ax => match ax with
      | ⟨0, _⟩ => by
        show (Fin.castAdd 64 k).val = if (192 : Nat) = 1 then 0 else (Fin.castAdd 64 k).val
        rw [if_neg (by decide)])).trans ?_
  refine concatenate_pair_apply_left (t := S192) (s₁ := S128) (s₂ := S64) (0 : Fin 1) a b
    concatenates_S128_S64_S192_d0 (ix1 (Fin.castAdd 64 k)) rfl (ix1 k) fun ax => ?_
  match ax with
  | ⟨0, _⟩ => rfl

theorem catB_right (a : S128.Idx → EReal) (b : S64.Idx → EReal) (k : Fin 64) :
    catB a b (ix2 (0 : Fin 1) (Fin.natAdd 128 k)) = b (ix1 k) := by
  unfold catB
  refine (broadcastInDim_apply (s := S192) (t := S1x192) ![1] bcast_S192_S1x192_1 _ (ix2 (0 : Fin 1) (Fin.natAdd 128 k))
    (ix1 (Fin.natAdd 128 k)) (fun ax => match ax with
      | ⟨0, _⟩ => by
        show (Fin.natAdd 128 k).val = if (192 : Nat) = 1 then 0 else (Fin.natAdd 128 k).val
        rw [if_neg (by decide)])).trans ?_
  refine concatenate_pair_apply_right (t := S192) (s₁ := S128) (s₂ := S64) (0 : Fin 1) a b
    concatenates_S128_S64_S192_d0 (ix1 (Fin.natAdd 128 k)) rfl rfl (ix1 k) (fun ax hax => ?_) ?_
  · match ax with
    | ⟨0, _⟩ => exact absurd rfl hax
  · show k.val + 128 = 128 + k.val
    omega

/-- The zero splat the host writes reads as 0. -/
theorem zeros_apply {T : Shape} (h : (⟨0, ![]⟩ : Shape).BroadcastsInDim T ![]) (j : T.Idx) :
    broadcastInDim T ![] h (constant (F := Ideal) S_ .f32 0x00000000#32) j = (0 : EReal) := by
  rw [broadcastInDim_scalar_apply]
  exact Ideal.ofBits_zero_f32

/-- The upper block of the second-layer array: the first network's column beside a zero column. -/
abbrev topW2 (a : S128x1.Idx → EReal) : S128x2.Idx → EReal :=
  concatenate S128x2 1 [⟨S128x1, a⟩, ⟨S128x1, broadcastInDim S128x1 ![] bcast_S_S128x1 (constant (F := Ideal) S_ .f32 0x00000000#32)⟩] concatenates_S128x1_S128x1_S128x2_d1

/-- The lower block: a zero column beside the second network's column. -/
abbrev botW2 (b : S64x1.Idx → EReal) : S64x2.Idx → EReal :=
  concatenate S64x2 1 [⟨S64x1, broadcastInDim S64x1 ![] bcast_S_S64x1 (constant (F := Ideal) S_ .f32 0x00000000#32)⟩, ⟨S64x1, b⟩] concatenates_S64x1_S64x1_S64x2_d1

theorem catW2_top (a : S128x1.Idx → EReal) (b : S64x1.Idx → EReal) (k : Fin 128) (q : Fin 2) :
    catW2 a b (ix2 (Fin.castAdd 64 k) q) = topW2 a (ix2 k q) := by
  unfold catW2
  refine concatenate_pair_apply_left (t := S192x2) (s₁ := S128x2) (s₂ := S64x2) (0 : Fin 2) (topW2 a) (botW2 b)
    concatenates_S128x2_S64x2_S192x2_d0 (ix2 (Fin.castAdd 64 k) q) rfl (ix2 k q) fun ax => ?_
  match ax with
  | ⟨0, _⟩ => rfl
  | ⟨1, _⟩ => rfl

theorem catW2_bot (a : S128x1.Idx → EReal) (b : S64x1.Idx → EReal) (k : Fin 64) (q : Fin 2) :
    catW2 a b (ix2 (Fin.natAdd 128 k) q) = botW2 b (ix2 k q) := by
  unfold catW2
  refine concatenate_pair_apply_right (t := S192x2) (s₁ := S128x2) (s₂ := S64x2) (0 : Fin 2) (topW2 a) (botW2 b)
    concatenates_S128x2_S64x2_S192x2_d0 (ix2 (Fin.natAdd 128 k) q) rfl rfl (ix2 k q) (fun ax hax => ?_) ?_
  · match ax with
    | ⟨0, _⟩ => exact absurd rfl hax
    | ⟨1, _⟩ => rfl
  · show k.val + 128 = 128 + k.val
    omega

theorem topW2_0 (a : S128x1.Idx → EReal) (k : Fin 128) : topW2 a (ix2 k (0 : Fin 2)) = a (ix2 k (0 : Fin 1)) := by
  refine concatenate_pair_apply_left (t := S128x2) (s₁ := S128x1) (s₂ := S128x1) (1 : Fin 2) a _
    concatenates_S128x1_S128x1_S128x2_d1 (ix2 k (0 : Fin 2)) rfl (ix2 k (0 : Fin 1)) fun ax => ?_
  match ax with
  | ⟨0, _⟩ => rfl
  | ⟨1, _⟩ => rfl

theorem topW2_1 (a : S128x1.Idx → EReal) (k : Fin 128) : topW2 a (ix2 k (1 : Fin 2)) = 0 := by
  refine (concatenate_pair_apply_right (t := S128x2) (s₁ := S128x1) (s₂ := S128x1) (1 : Fin 2) a _
    concatenates_S128x1_S128x1_S128x2_d1 (ix2 k (1 : Fin 2)) rfl rfl (ix2 k (0 : Fin 1)) (fun ax hax => ?_) ?_).trans
    (zeros_apply _ _)
  · match ax with
    | ⟨0, _⟩ => rfl
    | ⟨1, _⟩ => exact absurd rfl hax
  · rfl

theorem botW2_0 (b : S64x1.Idx → EReal) (k : Fin 64) : botW2 b (ix2 k (0 : Fin 2)) = 0 := by
  refine (concatenate_pair_apply_left (t := S64x2) (s₁ := S64x1) (s₂ := S64x1) (1 : Fin 2) _ b
    concatenates_S64x1_S64x1_S64x2_d1 (ix2 k (0 : Fin 2)) rfl (ix2 k (0 : Fin 1)) fun ax => ?_).trans (zeros_apply _ _)
  match ax with
  | ⟨0, _⟩ => rfl
  | ⟨1, _⟩ => rfl

theorem botW2_1 (b : S64x1.Idx → EReal) (k : Fin 64) : botW2 b (ix2 k (1 : Fin 2)) = b (ix2 k (0 : Fin 1)) := by
  refine concatenate_pair_apply_right (t := S64x2) (s₁ := S64x1) (s₂ := S64x1) (1 : Fin 2) _ b
    concatenates_S64x1_S64x1_S64x2_d1 (ix2 k (1 : Fin 2)) rfl rfl (ix2 k (0 : Fin 1)) (fun ax hax => ?_) ?_
  · match ax with
    | ⟨0, _⟩ => rfl
    | ⟨1, _⟩ => exact absurd rfl hax
  · rfl

theorem catW2_top0 (a : S128x1.Idx → EReal) (b : S64x1.Idx → EReal) (k : Fin 128) :
    catW2 a b (ix2 (Fin.castAdd 64 k) (0 : Fin 2)) = a (ix2 k (0 : Fin 1)) := (catW2_top a b k 0).trans (topW2_0 a k)
theorem catW2_top1 (a : S128x1.Idx → EReal) (b : S64x1.Idx → EReal) (k : Fin 128) :
    catW2 a b (ix2 (Fin.castAdd 64 k) (1 : Fin 2)) = 0 := (catW2_top a b k 1).trans (topW2_1 a k)
theorem catW2_bot0 (a : S128x1.Idx → EReal) (b : S64x1.Idx → EReal) (k : Fin 64) :
    catW2 a b (ix2 (Fin.natAdd 128 k) (0 : Fin 2)) = 0 := (catW2_bot a b k 0).trans (botW2_0 b k)
theorem catW2_bot1 (a : S128x1.Idx → EReal) (b : S64x1.Idx → EReal) (k : Fin 64) :
    catW2 a b (ix2 (Fin.natAdd 128 k) (1 : Fin 2)) = b (ix2 k (0 : Fin 1)) := (catW2_bot a b k 1).trans (botW2_1 b k)

theorem catB2_0 (a b : S1.Idx → EReal) : catB2 a b (ix2 (0 : Fin 1) (0 : Fin 2)) = a (ix1 (0 : Fin 1)) := by
  unfold catB2
  refine (broadcastInDim_apply (s := S2) (t := S1x2) ![1] bcast_S2_S1x2_1 _ (ix2 (0 : Fin 1) (0 : Fin 2))
    (ix1 (0 : Fin 2)) (fun ax => match ax with
      | ⟨0, _⟩ => by
        show (0 : Nat) = if (2 : Nat) = 1 then 0 else 0
        rw [if_neg (by decide)])).trans ?_
  refine concatenate_pair_apply_left (t := S2) (s₁ := S1) (s₂ := S1) (0 : Fin 1) a b
    concatenates_S1_S1_S2_d0 (ix1 (0 : Fin 2)) rfl (ix1 (0 : Fin 1)) fun ax => ?_
  match ax with
  | ⟨0, _⟩ => rfl

theorem catB2_1 (a b : S1.Idx → EReal) : catB2 a b (ix2 (0 : Fin 1) (1 : Fin 2)) = b (ix1 (0 : Fin 1)) := by
  unfold catB2
  refine (broadcastInDim_apply (s := S2) (t := S1x2) ![1] bcast_S2_S1x2_1 _ (ix2 (0 : Fin 1) (1 : Fin 2))
    (ix1 (1 : Fin 2)) (fun ax => match ax with
      | ⟨0, _⟩ => by
        show (1 : Nat) = if (2 : Nat) = 1 then 0 else 1
        rw [if_neg (by decide)])).trans ?_
  refine concatenate_pair_apply_right (t := S2) (s₁ := S1) (s₂ := S1) (0 : Fin 1) a b
    concatenates_S1_S1_S2_d0 (ix1 (1 : Fin 2)) rfl rfl (ix1 (0 : Fin 1)) (fun ax hax => ?_) ?_
  · match ax with
    | ⟨0, _⟩ => exact absurd rfl hax
  · rfl

end Cert.KernelIdeal.Hand

end
-- ==== Proof.KValue.lean ====
/-
  The kernel program's two results as functions of its argument arrays.

  Walking the program's memory from the launch: the host assembles the fused weight and bias arrays; the
  projection region leaves T = x · W_fused; the first adjacency pass, entered with T and the fused arrays,
  leaves U = layer(A, T, bias_fused) · W2_fused; the second adjacency pass, entered with U, leaves
  S = A · U + bias2_fused; the two results are the columns 1 and 0 of S. No region and no host operation
  writes an array that a later region reads, other than the one it produces.
-/
import proofs.«108206_g20933670601111_cont_8to1_1445_10_alg».proof.Proof.Gen.KernelIdeal.Frame
import proofs.«108206_g20933670601111_cont_8to1_1445_10_alg».proof.Proof.Region0
import proofs.«108206_g20933670601111_cont_8to1_1445_10_alg».proof.Proof.Region1
import proofs.«108206_g20933670601111_cont_8to1_1445_10_alg».proof.Proof.Region2
import proofs.«108206_g20933670601111_cont_8to1_1445_10_alg».proof.Proof.Glue
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Cert.KernelIdeal Cert.KernelIdeal.Facts₀ Cert.KernelIdeal.Gen Cert.GraphConv

variable (m : (ℓ : Loc nD τ sig) → Buf (Elt Ideal) ℓ) (ρ : Dev nD → PrngReg)

/-! ## The memory the projection region is entered from -/

theorem entry0_x (c : Dev nD) : V1 m ρ c main_arg1 = (m ((c : Thread nD τ).loc main_arg1)) := by
  show StableHlo.after hostOps0 (W0 m ρ c) (Proc.devRef .tc main_arg1) = _
  after_results

theorem entry0_adj (c : Dev nD) : V1 m ρ c main_arg0 = (m ((c : Thread nD τ).loc main_arg0)) := by
  show StableHlo.after hostOps0 (W0 m ρ c) (Proc.devRef .tc main_arg0) = _
  after_results

theorem entry0_w (c : Dev nD) : V1 m ρ c main_v0 = catW (m ((c : Thread nD τ).loc main_arg2)) (m ((c : Thread nD τ).loc main_arg6)) := by
  show StableHlo.after hostOps0 (W0 m ρ c) (Proc.devRef .tc main_v0) = _
  after_results
  rfl

theorem entry0_b (c : Dev nD) : V1 m ρ c main_v2 = catB (m ((c : Thread nD τ).loc main_arg3)) (m ((c : Thread nD τ).loc main_arg7)) := by
  show StableHlo.after hostOps0 (W0 m ρ c) (Proc.devRef .tc main_v2) = _
  after_results
  rfl

theorem entry0_w2 (c : Dev nD) : V1 m ρ c main_v7 = catW2 (m ((c : Thread nD τ).loc main_arg4)) (m ((c : Thread nD τ).loc main_arg8)) := by
  show StableHlo.after hostOps0 (W0 m ρ c) (Proc.devRef .tc main_v7) = _
  after_results
  rfl

theorem entry0_b2 (c : Dev nD) : V1 m ρ c main_v9 = catB2 (m ((c : Thread nD τ).loc main_arg5)) (m ((c : Thread nD τ).loc main_arg9)) := by
  show StableHlo.after hostOps0 (W0 m ρ c) (Proc.devRef .tc main_v9) = _
  after_results
  rfl

/-! ## The arrays the three regions work on -/

/-- The projected features. -/
abbrev projArr (c : Dev nD) : Mat 10000 192 :=
  prod ((m ((c : Thread nD τ).loc main_arg1)) : S10000x256.Idx → EReal) (catW (m ((c : Thread nD τ).loc main_arg2)) (m ((c : Thread nD τ).loc main_arg6)))

/-- The first adjacency pass's result. -/
abbrev hiddenArr (c : Dev nD) : Mat 10000 2 :=
  prod (layer ((m ((c : Thread nD τ).loc main_arg0)) : S10000x10000.Idx → EReal) (projArr m c)
    (fun k => catB (m ((c : Thread nD τ).loc main_arg3)) (m ((c : Thread nD τ).loc main_arg7)) (ix2 (0 : Fin 1) k))) (catW2 (m ((c : Thread nD τ).loc main_arg4)) (m ((c : Thread nD τ).loc main_arg8)))

/-- The second adjacency pass's result: both networks' outputs, one per column. -/
abbrev outArr (c : Dev nD) : Mat 10000 2 :=
  affine ((m ((c : Thread nD τ).loc main_arg0)) : S10000x10000.Idx → EReal) (hiddenArr m c)
    (fun q => catB2 (m ((c : Thread nD τ).loc main_arg5)) (m ((c : Thread nD τ).loc main_arg9)) (ix2 (0 : Fin 1) q))

/-! ## The memory the first adjacency pass is entered from -/

theorem entry1_adj (c : Dev nD) : V2 m ρ c main_arg0 = (m ((c : Thread nD τ).loc main_arg0)) :=
  (W2_of_ne m ρ c main_arg0 (by decide)).trans (entry0_adj m ρ c)

theorem entry1_b (c : Dev nD) : V2 m ρ c main_v2 = catB (m ((c : Thread nD τ).loc main_arg3)) (m ((c : Thread nD τ).loc main_arg7)) :=
  (W2_of_ne m ρ c main_v2 (by decide)).trans (entry0_b m ρ c)

theorem entry1_w2 (c : Dev nD) : V2 m ρ c main_v7 = catW2 (m ((c : Thread nD τ).loc main_arg4)) (m ((c : Thread nD τ).loc main_arg8)) :=
  (W2_of_ne m ρ c main_v7 (by decide)).trans (entry0_w2 m ρ c)

theorem entry1_b2 (c : Dev nD) : V2 m ρ c main_v9 = catB2 (m ((c : Thread nD τ).loc main_arg5)) (m ((c : Thread nD τ).loc main_arg9)) :=
  (W2_of_ne m ρ c main_v9 (by decide)).trans (entry0_b2 m ρ c)

theorem entry1_T (c : Dev nD) : V2 m ρ c main_v10 = projArr m c :=
  (W2_arr m ρ c 2).trans ((final_proj (V1 m ρ) c).trans (by rw [entry0_x, entry0_w]))

/-! ## The memory the second adjacency pass is entered from -/

theorem entry2_adj (c : Dev nD) : V3 m ρ c main_arg0 = (m ((c : Thread nD τ).loc main_arg0)) :=
  ((W3_arr m ρ c 0).trans (((dat1 (V2 m ρ) c).arrAt_in 0 rfl _).trans (A_eq1 (V2 m ρ) c 0))).trans (entry1_adj m ρ c)

theorem entry2_b2 (c : Dev nD) : V3 m ρ c main_v9 = catB2 (m ((c : Thread nD τ).loc main_arg5)) (m ((c : Thread nD τ).loc main_arg9)) :=
  (W3_of_ne m ρ c main_v9 (by decide)).trans (entry1_b2 m ρ c)

theorem entry2_U (c : Dev nD) : V3 m ρ c main_v11 = hiddenArr m c :=
  (W3_arr m ρ c 4).trans ((final_pass1 (V2 m ρ) c).trans (by
    show prod (layer (V2 m ρ c main_arg0 : S10000x10000.Idx → EReal) (V2 m ρ c main_v10 : S10000x192.Idx → EReal)
      (fun k => (V2 m ρ c main_v2 : S1x192.Idx → EReal) (ix2 (0 : Fin 1) k))) (V2 m ρ c main_v7 : S192x2.Idx → EReal) = _
    rw [entry1_adj, entry1_T, entry1_b, entry1_w2]))

/-! ## The results -/

theorem exit2_out (c : Dev nD) : W4 m ρ c (Proc.devRef .tc main_v12) = outArr m c :=
  (W4_arr m ρ c 3).trans ((final_pass2 (V3 m ρ) c).trans (by
    show affine (V3 m ρ c main_arg0 : S10000x10000.Idx → EReal) (V3 m ρ c main_v11 : S10000x2.Idx → EReal)
      (fun q => (V3 m ρ c main_v9 : S1x2.Idx → EReal) (ix2 (0 : Fin 1) q)) = _
    rw [entry2_adj, entry2_U, entry2_b2]))

/-- The first result is column 1 of the second pass's array. -/
theorem result_col1 (c : Dev nD) :
    W5 m ρ c (Proc.devRef .tc main_v13) = extractStridedSlice S10000x1 ![0, 1] (outArr m c) Facts₀.slices_S10000x2_S10000x1_0_1 := by
  show StableHlo.after hostOps3 (W4 m ρ c) (Proc.devRef .tc main_v13) = _
  after_results
  rw [exit2_out]

/-- The second result is column 0 of the second pass's array. -/
theorem result_col0 (c : Dev nD) :
    W5 m ρ c (Proc.devRef .tc main_v14) = extractStridedSlice S10000x1 ![0, 0] (outArr m c) Facts₀.slices_S10000x2_S10000x1_0_0 := by
  show StableHlo.after hostOps3 (W4 m ρ c) (Proc.devRef .tc main_v14) = _
  after_results
  rw [exit2_out]

end Cert.KernelIdeal.Hand

end
-- ==== Proof.RefRead.lean ====
/-
  The reference program's two results, read entry by entry.

  Each result of the reference is a two-layer graph convolution with one output column: a product of the
  features with the first-layer weights, the adjacency applied to it, the bias added along the columns, a
  rectifier, a product with the second-layer column, the adjacency applied again, and the output bias added.
  Reading the reference's operations one at a time at an index gives exactly the specification's nested sums.
-/
import proofs.«108206_g20933670601111_cont_8to1_1445_10_alg».proof.Proof.Gen.ReferenceIdeal.Read
import proofs.«108206_g20933670601111_cont_8to1_1445_10_alg».proof.Proof.Spec

noncomputable section

namespace Cert.ReferenceIdeal.Hand

open Idealize.ShloMosaic Idealize.ShloMosaic.ValueIdx
open Cert.ReferenceIdeal Cert.GraphConv
open scoped BigOperators

/-- The reference's first (the wrapped network's) result is the two-layer network of its arguments. -/
theorem ref_second (x0 : (⟨S10000x10000, .f32⟩ : BufTy).Contents (Elt Ideal)) (x1 : (⟨S10000x256, .f32⟩ : BufTy).Contents (Elt Ideal))
    (xW : (⟨S256x64, .f32⟩ : BufTy).Contents (Elt Ideal)) (xb : (⟨S64, .f32⟩ : BufTy).Contents (Elt Ideal))
    (xW2 : (⟨S64x1, .f32⟩ : BufTy).Contents (Elt Ideal)) (xb2 : (⟨S1, .f32⟩ : BufTy).Contents (Elt Ideal)) :
    (Read.val_main_v21 (F := Ideal) x0 x1 xW xb xW2 xb2 : S10000x1.Idx → EReal)
      = gcn (x0 : S10000x10000.Idx → EReal) (x1 : S10000x256.Idx → EReal) (xW : S256x64.Idx → EReal)
          (fun k => (xb : S64.Idx → EReal) (ix1 k)) (xW2 : S64x1.Idx → EReal) (fun q => (xb2 : S1.Idx → EReal) (ix1 q)) := by
  funext i
  obtain ⟨r, z, rfl⟩ : ∃ (r : Fin 10000) (z : Fin 1), i = ix2 r z := ⟨i 0, i 1, eq_ix2 i⟩
  obtain rfl : z = 0 := Subsingleton.elim _ _
  unfold gcn
  rw [affine_ix2, prod_ix2, Read.val_main_v21_apply, Read.val_main_v18_apply, Read.val_main_v20_apply, Read.val_main_v19_apply,
    Ideal.addf_def]
  have eb2 : Read.idx_main_v19 (Read.idx_main_v20 (ix2 r (0 : Fin 1))) = ix1 (0 : Fin 1) :=
    funext fun ax => Fin.ext (by match ax with | ⟨0, _⟩ => rfl)
  rw [eb2]
  refine congrArg (· + xb2 (ix1 (0 : Fin 1))) (Finset.sum_congr rfl fun j _ => ?_)
  have e1 : Read.lidx_main_v18 (ix2 r (0 : Fin 1)) j = ix2 r j :=
    funext fun ax => Fin.ext (by match ax with | ⟨0, _⟩ => rfl | ⟨1, _⟩ => rfl)
  have e2 : Read.ridx_main_v18 (ix2 r (0 : Fin 1)) j = ix2 j (0 : Fin 1) :=
    funext fun ax => Fin.ext (by match ax with | ⟨0, _⟩ => rfl | ⟨1, _⟩ => rfl)
  rw [e1, e2]
  refine congrArg (x0 (ix2 r j) * ·) ?_
  rw [Read.val_main_v17_apply, prod_ix2]
  refine Finset.sum_congr rfl fun k _ => ?_
  have e3 : Read.lidx_main_v17 (ix2 j (0 : Fin 1)) k = ix2 j k :=
    funext fun ax => Fin.ext (by match ax with | ⟨0, _⟩ => rfl | ⟨1, _⟩ => rfl)
  have e4 : Read.ridx_main_v17 (ix2 j (0 : Fin 1)) k = ix2 k (0 : Fin 1) :=
    funext fun ax => Fin.ext (by match ax with | ⟨0, _⟩ => rfl | ⟨1, _⟩ => rfl)
  rw [e3, e4]
  refine congrArg (· * xW2 (ix2 k (0 : Fin 1))) ?_
  rw [Read.val_main_v16_apply, Read.val_main_v15_apply, Read.val_main_call1_v0_apply, Read.val_main_call1_cst_apply,
    Read.val_main_v14_apply, Read.val_main_v13_apply, Read.val_main_v12_apply, layer_ix2, prod_ix2,
    Ideal.maximumf_def, Ideal.addf_def, Ideal.ofBits_def, Ideal.ofBits_zero_f32]
  have e5 : Read.idx_main_v13 (Read.idx_main_v14 (ix2 j k)) = ix1 k :=
    funext fun ax => Fin.ext (by match ax with | ⟨0, _⟩ => rfl)
  rw [e5]
  refine congrArg (fun s => max (s + xb (ix1 k)) 0) (Finset.sum_congr rfl fun l _ => ?_)
  have e6 : Read.lidx_main_v12 (ix2 j k) l = ix2 j l :=
    funext fun ax => Fin.ext (by match ax with | ⟨0, _⟩ => rfl | ⟨1, _⟩ => rfl)
  have e7 : Read.ridx_main_v12 (ix2 j k) l = ix2 l k :=
    funext fun ax => Fin.ext (by match ax with | ⟨0, _⟩ => rfl | ⟨1, _⟩ => rfl)
  rw [e6, e7, Read.val_main_v11_apply, prod_ix2]
  refine congrArg (x0 (ix2 j l) * ·) (Finset.sum_congr rfl fun p _ => ?_)
  have e8 : Read.lidx_main_v11 (ix2 l k) p = ix2 l p :=
    funext fun ax => Fin.ext (by match ax with | ⟨0, _⟩ => rfl | ⟨1, _⟩ => rfl)
  have e9 : Read.ridx_main_v11 (ix2 l k) p = ix2 p k :=
    funext fun ax => Fin.ext (by match ax with | ⟨0, _⟩ => rfl | ⟨1, _⟩ => rfl)
  rw [e8, e9]

/-- The reference's second (the estimator's) result is the two-layer network of its arguments. -/
theorem ref_first (x0 : (⟨S10000x10000, .f32⟩ : BufTy).Contents (Elt Ideal)) (x1 : (⟨S10000x256, .f32⟩ : BufTy).Contents (Elt Ideal))
    (xW : (⟨S256x128, .f32⟩ : BufTy).Contents (Elt Ideal)) (xb : (⟨S128, .f32⟩ : BufTy).Contents (Elt Ideal))
    (xW2 : (⟨S128x1, .f32⟩ : BufTy).Contents (Elt Ideal)) (xb2 : (⟨S1, .f32⟩ : BufTy).Contents (Elt Ideal)) :
    (Read.val_main_v10 (F := Ideal) x0 x1 xW xb xW2 xb2 : S10000x1.Idx → EReal)
      = gcn (x0 : S10000x10000.Idx → EReal) (x1 : S10000x256.Idx → EReal) (xW : S256x128.Idx → EReal)
          (fun k => (xb : S128.Idx → EReal) (ix1 k)) (xW2 : S128x1.Idx → EReal) (fun q => (xb2 : S1.Idx → EReal) (ix1 q)) := by
  funext i
  obtain ⟨r, z, rfl⟩ : ∃ (r : Fin 10000) (z : Fin 1), i = ix2 r z := ⟨i 0, i 1, eq_ix2 i⟩
  obtain rfl : z = 0 := Subsingleton.elim _ _
  unfold gcn
  rw [affine_ix2, prod_ix2, Read.val_main_v10_apply, Read.val_main_v7_apply, Read.val_main_v9_apply, Read.val_main_v8_apply,
    Ideal.addf_def]
  have eb2 : Read.idx_main_v8 (Read.idx_main_v9 (ix2 r (0 : Fin 1))) = ix1 (0 : Fin 1) :=
    funext fun ax => Fin.ext (by match ax with | ⟨0, _⟩ => rfl)
  rw [eb2]
  refine congrArg (· + xb2 (ix1 (0 : Fin 1))) (Finset.sum_congr rfl fun j _ => ?_)
  have e1 : Read.lidx_main_v7 (ix2 r (0 : Fin 1)) j = ix2 r j :=
    funext fun ax => Fin.ext (by match ax with | ⟨0, _⟩ => rfl | ⟨1, _⟩ => rfl)
  have e2 : Read.ridx_main_v7 (ix2 r (0 : Fin 1)) j = ix2 j (0 : Fin 1) :=
    funext fun ax => Fin.ext (by match ax with | ⟨0, _⟩ => rfl | ⟨1, _⟩ => rfl)
  rw [e1, e2]
  refine congrArg (x0 (ix2 r j) * ·) ?_
  rw [Read.val_main_v6_apply, prod_ix2]
  refine Finset.sum_congr rfl fun k _ => ?_
  have e3 : Read.lidx_main_v6 (ix2 j (0 : Fin 1)) k = ix2 j k :=
    funext fun ax => Fin.ext (by match ax with | ⟨0, _⟩ => rfl | ⟨1, _⟩ => rfl)
  have e4 : Read.ridx_main_v6 (ix2 j (0 : Fin 1)) k = ix2 k (0 : Fin 1) :=
    funext fun ax => Fin.ext (by match ax with | ⟨0, _⟩ => rfl | ⟨1, _⟩ => rfl)
  rw [e3, e4]
  refine congrArg (· * xW2 (ix2 k (0 : Fin 1))) ?_
  rw [Read.val_main_v5_apply, Read.val_main_v4_apply, Read.val_main_call0_v0_apply, Read.val_main_call0_cst_apply,
    Read.val_main_v3_apply, Read.val_main_v2_apply, Read.val_main_v1_apply, layer_ix2, prod_ix2,
    Ideal.maximumf_def, Ideal.addf_def, Ideal.ofBits_def, Ideal.ofBits_zero_f32]
  have e5 : Read.idx_main_v2 (Read.idx_main_v3 (ix2 j k)) = ix1 k :=
    funext fun ax => Fin.ext (by match ax with | ⟨0, _⟩ => rfl)
  rw [e5]
  refine congrArg (fun s => max (s + xb (ix1 k)) 0) (Finset.sum_congr rfl fun l _ => ?_)
  have e6 : Read.lidx_main_v1 (ix2 j k) l = ix2 j l :=
    funext fun ax => Fin.ext (by match ax with | ⟨0, _⟩ => rfl | ⟨1, _⟩ => rfl)
  have e7 : Read.ridx_main_v1 (ix2 j k) l = ix2 l k :=
    funext fun ax => Fin.ext (by match ax with | ⟨0, _⟩ => rfl | ⟨1, _⟩ => rfl)
  rw [e6, e7, Read.val_main_v0_apply, prod_ix2]
  refine congrArg (x0 (ix2 j l) * ·) (Finset.sum_congr rfl fun p _ => ?_)
  have e8 : Read.lidx_main_v0 (ix2 l k) p = ix2 l p :=
    funext fun ax => Fin.ext (by match ax with | ⟨0, _⟩ => rfl | ⟨1, _⟩ => rfl)
  have e9 : Read.ridx_main_v0 (ix2 l k) p = ix2 p k :=
    funext fun ax => Fin.ext (by match ax with | ⟨0, _⟩ => rfl | ⟨1, _⟩ => rfl)
  rw [e8, e9]

end Cert.ReferenceIdeal.Hand

end
-- ==== Proof.Bridge.lean ====
/-
  The columns of the fused network's output are the two networks.

  The host slices column 1 and column 0 out of the fused [10000, 2] result. With the fused arrays read
  entry by entry (an entry of a fused array is an entry of one argument array, or zero), the column laws of
  the specification say: column 1 is the network built from the second weight set, column 0 the network
  built from the first.
-/
import proofs.«108206_g20933670601111_cont_8to1_1445_10_alg».proof.Proof.Glue
import proofs.«108206_g20933670601111_cont_8to1_1445_10_alg».proof.Proof.Spec
import Idealize.ShloMosaic.Lib.ValueLayout

noncomputable section

namespace Cert.KernelIdeal.Hand

open Idealize.ShloMosaic Idealize.ShloMosaic.ValueIdx
open Cert.KernelIdeal Cert.KernelIdeal.Facts₀ Cert.GraphConv

variable (A : S10000x10000.Idx → EReal) (x : S10000x256.Idx → EReal)
  (Wa : S256x128.Idx → EReal) (ba : S128.Idx → EReal) (Wa2 : S128x1.Idx → EReal) (ba2 : S1.Idx → EReal)
  (Wb : S256x64.Idx → EReal) (bb : S64.Idx → EReal) (Wb2 : S64x1.Idx → EReal) (bb2 : S1.Idx → EReal)

/-- The fused network's output over the assembled arrays. -/
abbrev fusedOut : Mat 10000 2 :=
  affine A (prod (layer A (prod x (catW Wa Wb)) (fun k => catB ba bb (ix2 (0 : Fin 1) k))) (catW2 Wa2 Wb2))
    (fun q => catB2 ba2 bb2 (ix2 (0 : Fin 1) q))

/-- Column 1, cut out by the host slice, is the network of the second weight set. -/
theorem slice_col1 :
    extractStridedSlice S10000x1 ![0, 1] (fusedOut A x Wa ba Wa2 ba2 Wb bb Wb2 bb2) slices_S10000x2_S10000x1_0_1
      = gcn A x Wb (fun k => bb (ix1 k)) Wb2 (fun q => bb2 (ix1 q)) := by
  funext i
  obtain ⟨r, z, rfl⟩ : ∃ (r : Fin 10000) (z : Fin 1), i = ix2 r z := ⟨i 0, i 1, eq_ix2 i⟩
  obtain rfl : z = 0 := Subsingleton.elim _ _
  refine (slice2_axis1_apply 1 (fusedOut A x Wa ba Wa2 ba2 Wb bb Wb2 bb2) slices_S10000x2_S10000x1_0_1 r (0 : Fin 1) (1 : Fin 2) rfl).trans ?_
  exact fused_col1 (h1 := 128) (h2 := 64) A x (catW Wa Wb) (fun k => catB ba bb (ix2 (0 : Fin 1) k)) (catW2 Wa2 Wb2)
    (fun q => catB2 ba2 bb2 (ix2 (0 : Fin 1) q)) Wb (fun k => bb (ix1 k)) Wb2 (fun q => bb2 (ix1 q))
    (fun p k => catW_right Wa Wb p k) (fun k => catB_right ba bb k) (fun k => catW2_top1 Wa2 Wb2 k)
    (fun k => catW2_bot1 Wa2 Wb2 k) (catB2_1 ba2 bb2) r

/-- Column 0, cut out by the host slice, is the network of the first weight set. -/
theorem slice_col0 :
    extractStridedSlice S10000x1 ![0, 0] (fusedOut A x Wa ba Wa2 ba2 Wb bb Wb2 bb2) slices_S10000x2_S10000x1_0_0
      = gcn A x Wa (fun k => ba (ix1 k)) Wa2 (fun q => ba2 (ix1 q)) := by
  funext i
  obtain ⟨r, z, rfl⟩ : ∃ (r : Fin 10000) (z : Fin 1), i = ix2 r z := ⟨i 0, i 1, eq_ix2 i⟩
  obtain rfl : z = 0 := Subsingleton.elim _ _
  refine (slice2_axis1_apply 0 (fusedOut A x Wa ba Wa2 ba2 Wb bb Wb2 bb2) slices_S10000x2_S10000x1_0_0 r (0 : Fin 1) (0 : Fin 2) rfl).trans ?_
  exact fused_col0 (h1 := 128) (h2 := 64) A x (catW Wa Wb) (fun k => catB ba bb (ix2 (0 : Fin 1) k)) (catW2 Wa2 Wb2)
    (fun q => catB2 ba2 bb2 (ix2 (0 : Fin 1) q)) Wa (fun k => ba (ix1 k)) Wa2 (fun q => ba2 (ix1 q))
    (fun p k => catW_left Wa Wb p k) (fun k => catB_left ba bb k) (fun k => catW2_top0 Wa2 Wb2 k)
    (fun k => catW2_bot0 Wa2 Wb2 k) (catB2_0 ba2 bb2) r

end Cert.KernelIdeal.Hand

end
-- ==== Proof.lean ====
/-
  Two graph-convolution networks over one dense adjacency, evaluated fused by three kernels and unfused by
  the reference: equal, entry by entry, over the extended reals.

  The reference computes, for each of two weight sets (W, b, W2, b2) sharing the adjacency A and the features x,
      out = A · (max (A · (x · W) + b, 0) · W2) + b2                         (one column per network).
  The kernel program lays the two first-layer weight matrices side by side (128 + 64 hidden units), the two
  first-layer biases end to end, puts the two second-layer columns in a [192, 2] array that is zero outside
  its two diagonal blocks, and evaluates
      T = x · W_fused,   U = max (A · T + b_fused, 0) · W2_fused,   S = A · U + b2_fused
  in three kernel regions that each sweep blocks of rows; the results are columns 1 and 0 of S.
  At the ideal instance a change of float format is the identity and every matrix product is the textbook sum,
  so each region leaves the whole-array function above; and column c of S only sees the hidden units of
  network c, the others being multiplied by the zero block. That uses only y · 0 = 0 and 0 + y = y, which hold
  for every extended real, so the finiteness precondition is not needed for the values.

  The frames are the generated ones; the idealization rewrote no operation, so there is nothing to preserve.
-/
import proofs.«108206_g20933670601111_cont_8to1_1445_10_alg».proof.Defs
import proofs.«108206_g20933670601111_cont_8to1_1445_10_alg».proof.Proof.Gen.Kernel
import proofs.«108206_g20933670601111_cont_8to1_1445_10_alg».proof.Proof.Gen.Kernel.Skeleton
import proofs.«108206_g20933670601111_cont_8to1_1445_10_alg».proof.Proof.Gen.Kernel.Launch
import proofs.«108206_g20933670601111_cont_8to1_1445_10_alg».proof.Proof.Gen.Kernel.Points
import proofs.«108206_g20933670601111_cont_8to1_1445_10_alg».proof.Proof.Gen.Kernel.Frame
import proofs.«108206_g20933670601111_cont_8to1_1445_10_alg».proof.Proof.Gen.KernelIdeal
import proofs.«108206_g20933670601111_cont_8to1_1445_10_alg».proof.Proof.Gen.KernelIdeal.Skeleton
import proofs.«108206_g20933670601111_cont_8to1_1445_10_alg».proof.Proof.Gen.KernelIdeal.Launch
import proofs.«108206_g20933670601111_cont_8to1_1445_10_alg».proof.Proof.Gen.KernelIdeal.Points
import proofs.«108206_g20933670601111_cont_8to1_1445_10_alg».proof.Proof.Gen.KernelIdeal.Frame
import proofs.«108206_g20933670601111_cont_8to1_1445_10_alg».proof.Proof.Gen.ReferenceIdeal
import proofs.«108206_g20933670601111_cont_8to1_1445_10_alg».proof.Proof.Gen.ReferenceIdeal.Run
import proofs.«108206_g20933670601111_cont_8to1_1445_10_alg».proof.Proof.Gen.ReferenceIdeal.Read
import proofs.«108206_g20933670601111_cont_8to1_1445_10_alg».proof.Proof.Gen.Pre_finite_inputs
import proofs.«108206_g20933670601111_cont_8to1_1445_10_alg».proof.Proof.KRun
import proofs.«108206_g20933670601111_cont_8to1_1445_10_alg».proof.Proof.KValue
import proofs.«108206_g20933670601111_cont_8to1_1445_10_alg».proof.Proof.RefRead
import proofs.«108206_g20933670601111_cont_8to1_1445_10_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the same two arrays: the kernel program's are columns 1 and 0 of the fused network's
    output, the reference's are the two networks, and a column of the fused output is its network. -/
theorem algebraic : Cert.algebraic_KernelIdeal_ReferenceIdeal := by
  intro m ρ m' ρ' _ hagree
  refine ⟨fun c => extractStridedSlice Cert.KernelIdeal.S10000x1 ![0, 1] (Cert.KernelIdeal.Hand.outArr m c)
      Cert.KernelIdeal.Facts₀.slices_S10000x2_S10000x1_0_1,
    fun c => extractStridedSlice Cert.KernelIdeal.S10000x1 ![0, 0] (Cert.KernelIdeal.Hand.outArr m c)
      Cert.KernelIdeal.Facts₀.slices_S10000x2_S10000x1_0_0, ?_, ?_⟩
  · exact (θ_run Cert.KernelIdeal.defs _ _).mono
      (fun r h c => ⟨(h c).1.trans (Cert.KernelIdeal.Hand.result_col1 m ρ c),
        (h c).2.1.trans (Cert.KernelIdeal.Hand.result_col0 m ρ c), (h c).2.2⟩)
      (Cert.KernelIdeal.Hand.run_boundary m ρ)
  · refine (θ_run Cert.ReferenceIdeal.defs _ _).mono (fun r h c => ?_) (Cert.ReferenceIdeal.Value.run (F := Ideal) m' ρ')
    obtain ⟨h0, h1, h2, h3, h4, h5, h6, h7, h8, h9⟩ := hagree c
    refine ⟨(h c).1.trans ?_, (h c).2.1.trans ?_, (h c).2.2⟩
    · rw [Cert.ReferenceIdeal.Read.val_main_v21_eq, Cert.ReferenceIdeal.Hand.ref_second, h0, h1, h6, h7, h8, h9]
      exact (Cert.KernelIdeal.Hand.slice_col1 _ _ _ _ _ _ _ _ _ _).symm
    · rw [Cert.ReferenceIdeal.Read.val_main_v10_eq, Cert.ReferenceIdeal.Hand.ref_first, h0, h1, h2, h3, h4, h5]
      exact (Cert.KernelIdeal.Hand.slice_col0 _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
